-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S128x4 : Shape := ⟨2, ![128, 4]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S128x4 : S_.BroadcastsInDim S128x4 (![] : Fin 0 → Fin S128x4.rank)
  reducesTo_S128x4_S_d0_1 : S128x4.ReducesTo [0, 1] S_

variable [Facts]

def fn {F : FTy → Type} [FloatOps F] (main_arg0 : FVec F S8x4096x128 .f32) (main_arg1 : FVec F S128x4 .f32) (main_arg2 : FVec F S128x4 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S128x4 .f32 := Host.absf main_arg1
  let main_cst_0 : FVec F S_ .f32 := constant S_ .f32 0x7F800000#32
  let main_v5 : FVec F S128x4 .f32 := broadcastInDim S128x4 ![] bcast_S_S128x4 main_cst_0
  let main_v6 : IVec S128x4 1 := cmpf .olt main_v4 main_v5
  let main_c_1 : IVec S_ 1 := constantI S_ 1 1#1
  let main_v7 : IVec S_ 1 := (fun x v => Host.reduce IntOp.andi x v reducesTo_S128x4_S_d0_1 h_S_) main_v6 main_c_1
  let main_v8 : IVec S_ 1 := andi main_v3 main_v7
  let main_v9 : FVec F S128x4 .f32 := Host.absf main_arg2
  let main_cst_2 : FVec F S_ .f32 := constant S_ .f32 0x7F800000#32
  let main_v10 : FVec F S128x4 .f32 := broadcastInDim S128x4 ![] bcast_S_S128x4 main_cst_2
  let main_v11 : IVec S128x4 1 := cmpf .olt main_v9 main_v10
  let main_c_3 : IVec S_ 1 := constantI S_ 1 1#1
  let main_v12 : IVec S_ 1 := (fun x v => Host.reduce IntOp.andi x v reducesTo_S128x4_S_d0_1 h_S_) main_v11 main_c_3
  let main_v13 : IVec S_ 1 := andi main_v8 main_v12
  main_v13
-- ==== Kernel.lean ====
abbrev S8x4096x128 : Shape := ⟨3, ![8, 4096, 128]⟩
abbrev S128x4 : Shape := ⟨2, ![128, 4]⟩
abbrev S8x4x4096 : Shape := ⟨3, ![8, 4, 4096]⟩
abbrev S1x4096x128 : Shape := ⟨3, ![1, 4096, 128]⟩
abbrev S1x4x4096 : Shape := ⟨3, ![1, 4, 4096]⟩
abbrev S4096x128 : Shape := ⟨2, ![4096, 128]⟩
abbrev S4x4096 : Shape := ⟨2, ![4, 4096]⟩
abbrev S4096x4096 : Shape := ⟨2, ![4096, 4096]⟩
abbrev S256x4096 : Shape := ⟨2, ![256, 4096]⟩
abbrev S1x4x256 : Shape := ⟨3, ![1, 4, 256]⟩
abbrev S4x256 : Shape := ⟨2, ![4, 256]⟩
abbrev S256 : Shape := ⟨1, ![256]⟩
abbrev S256x1 : Shape := ⟨2, ![256, 1]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S8x4096x128, .f32⟩
  | .hbm, ⟨1, _⟩ => ⟨S128x4, .f32⟩
  | .hbm, ⟨2, _⟩ => ⟨S128x4, .f32⟩
  | .hbm, ⟨3, _⟩ => ⟨S8x4x4096, .f32⟩
  | .hbm, ⟨4, _⟩ => ⟨S8x4x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .local _ .vmem, ⟨0, _⟩ => ⟨S1x4096x128, .f32⟩
  | .local _ .vmem, ⟨1, _⟩ => ⟨S1x4096x128, .f32⟩
  | .local _ .vmem, ⟨2, _⟩ => ⟨S128x4, .f32⟩
  | .local _ .vmem, ⟨3, _⟩ => ⟨S128x4, .f32⟩
  | .local _ .vmem, ⟨4, _⟩ => ⟨S1x4x4096, .f32⟩
  | .local _ .vmem, ⟨5, _⟩ => ⟨S1x4x4096, .f32⟩
  | .local _ .vmem, ⟨6, _⟩ => ⟨S1x4x4096, .f32⟩
  | .local _ .vmem, ⟨7, _⟩ => ⟨S1x4x4096, .f32⟩
  | .local _ .vmem, ⟨8, _⟩ => ⟨S8x4x4096, .f32⟩
  | .local _ .vmem, ⟨9, _⟩ => ⟨S8x4x4096, .f32⟩
  | .local _ .vmem, ⟨10, _⟩ => ⟨S256x4096, .f32⟩
  | .local _ .vmem, ⟨11, _⟩ => ⟨S256x4096, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 8], ![false, false]⟩

def k1_mult1 (i : grid1.Coords) : BitVec 32 :=
  let arg0 : BitVec 32 := BitVec.ofNat 32 (i 0).val
  let c256_i32 : BitVec 32 := 256#32
  let v3 : BitVec 32 := Scalar.muli arg0 c256_i32
  v3
def k1_off1 (i : grid1.Coords) : Fin 3 → Nat :=
  let arg1 : BitVec 32 := BitVec.ofNat 32 (i 1).val
  let v5 : Index := Scalar.indexCast arg1
  let c0 : Index := 0#32
  let arg0 : BitVec 32 := BitVec.ofNat 32 (i 0).val
  let c256_i32 : BitVec 32 := 256#32
  let v3 : BitVec 32 := Scalar.muli arg0 c256_i32
  let v4 : BitVec 32 := v3
  let v6 : Index := Scalar.indexCast v4
  ![v5.toNat, 0, v6.toNat]
def k1_off2 (i : grid1.Coords) : Fin 3 → Nat :=
  let arg1 : BitVec 32 := BitVec.ofNat 32 (i 1).val
  let v10 : Index := Scalar.indexCast arg1
  let c0_1 : Index := 0#32
  let c0_2 : Index := 0#32
  ![v10.toNat, 0, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 1 → Memref sig .tc .vmem S8x4x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S8x4x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S256x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S128x4_S128x4_0_0 : ∀ a, (![0, 0] : Fin 2 → Nat) a + S128x4.size a ≤ S128x4.size a
  h_S128x4 : 0 < S128x4.numel
  inb_S1x4x4096_S1x4x4096_0_0_0 : ∀ a, (![0, 0, 0] : Fin 3 → Nat) a + S1x4x4096.size a ≤ S1x4x4096.size a
  h_S1x4x4096 : 0 < S1x4x4096.numel
  shapeCasts_S1x4x4096_S4x4096 : S1x4x4096.ShapeCasts S4x4096
  shapeCasts_S4x4096_S1x4x4096 : S4x4096.ShapeCasts S1x4x4096
  inb_S256x4096_S256x4096_0_0 : ∀ a, (![0, 0] : Fin 2 → Nat) a + S256x4096.size a ≤ S256x4096.size a
  h_S256x4096 : 0 < S256x4096.numel
  h_S1x4x256 : 0 < S1x4x256.numel
  shapeCasts_S1x4x256_S4x256 : S1x4x256.ShapeCasts S4x256
  reduces_S256x4096_S256 : S256x4096.Reduces [1] S256
  shapeCasts_S256_S256x1 : S256.ShapeCasts S256x1
  broadcasts_S256x1_S256x4096 : S256x1.Broadcasts S256x4096
  shapeCasts_S256x4096_S256x4096 : S256x4096.ShapeCasts S256x4096
  transposes_S4096x4096_S4096x4096_1_0 : S4096x4096.Transposes [1, 0] S4096x4096
  bcast_S_S4096x4096 : S_.BroadcastsInDim S4096x4096 (![] : Fin 0 → Fin S4096x4096.rank)
  dot_S128x4_S4096x128_S4x4096_0_1_1_0_n_n_wf : DotDims.WF S128x4 S4096x128 S4x4096 [0] [1] [1] [0] [] []
  dot_S4x256_S4x4096_S256x4096_0_0_1_1_n_n_wf : DotDims.WF S4x256 S4x4096 S256x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S8x4096x128.size a
  hwx0_0 : ∀ i : grid0.Coords, EltTy.bits .f32 = 32 ∨ (Rect.block (s := S8x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4.size a ≤ S128x4.size a
  hwx0_2 : ∀ i : grid0.Coords, EltTy.bits .f32 = 32 ∨ (Rect.block (s := S128x4) S128x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x4096.size a ≤ S8x4x4096.size a
  hwx0_3 : ∀ i : grid0.Coords, EltTy.bits .f32 = 32 ∨ (Rect.block (s := S8x4x4096) S1x4x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x4096.size a ≤ S8x4x4096.size a
  hwx0_4 : ∀ i : grid0.Coords, EltTy.bits .f32 = 32 ∨ (Rect.block (s := S8x4x4096) S1x4x4096.size (cc0_transform_4 i) (hinb0_4 i)).WholeWords (EltTy.packing .f32)
  hrank1 : 0 < grid1.rank
  k1_mult1_dvd : ∀ i : grid1.Coords, 128 ∣ (k1_mult1 i).toNat
  k1_off1_inb : ∀ i : grid1.Coords, ∀ a, (k1_off1 i) a + S1x4x256.size a ≤ S8x4x4096.size a
  k1_off2_inb : ∀ i : grid1.Coords, ∀ a, (k1_off2 i) a + S1x4x4096.size a ≤ S8x4x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S8x4x4096.size a ≤ S8x4x4096.size a
  hwx1_0 : ∀ i : grid1.Coords, EltTy.bits .f32 = 32 ∨ (Rect.block (s := S8x4x4096) S8x4x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x4x4096.size a ≤ S8x4x4096.size a
  hwx1_1 : ∀ i : grid1.Coords, EltTy.bits .f32 = 32 ∨ (Rect.block (s := S8x4x4096) S8x4x4096.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S4096x4096.size a
  hwx1_2 : ∀ i : grid1.Coords, EltTy.bits .f32 = 32 ∨ (Rect.block (s := S4096x4096) S256x4096.size (cc1_transform_2 i) (hinb1_2 i)).WholeWords (EltTy.packing .f32)

variable [Facts₀]

def dot_S128x4_S4096x128_S4x4096_0_1_1_0_n_n : DotDims S128x4 S4096x128 S4x4096 where
  lhsContracting := [0]
  rhsContracting := [1]
  lhsNonContracting := [1]
  rhsNonContracting := [0]
  lhsBatch := []
  rhsBatch := []
  wf := dot_S128x4_S4096x128_S4x4096_0_1_1_0_n_n_wf
def dot_S4x256_S4x4096_S256x4096_0_0_1_1_n_n : DotDims S4x256 S4x4096 S256x4096 where
  lhsContracting := [0]
  rhsContracting := [0]
  lhsNonContracting := [1]
  rhsNonContracting := [1]
  lhsBatch := []
  rhsBatch := []
  wf := dot_S4x256_S4x4096_S256x4096_0_0_1_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x4x4096.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x4x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v0_0) S8x4x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S8x4x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S256x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x128 : Shape := ⟨3, ![8, 4096, 128]⟩
abbrev S128x4 : Shape := ⟨2, ![128, 4]⟩
abbrev S8x4096x4 : Shape := ⟨3, ![8, 4096, 4]⟩
abbrev S_ : Shape := ⟨0, ![]⟩
abbrev S8x4096x4096 : Shape := ⟨3, ![8, 4096, 4096]⟩
abbrev S8x4096 : Shape := ⟨2, ![8, 4096]⟩
abbrev S8x4096x1 : Shape := ⟨3, ![8, 4096, 1]⟩
abbrev S4096x4096 : Shape := ⟨2, ![4096, 4096]⟩

abbrev nBuf : Space → Nat
  | .hbm => 43
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S128x4, .f32⟩
  | .hbm, ⟨2, _⟩ => ⟨S128x4, .f32⟩
  | .hbm, ⟨3, _⟩ => ⟨S8x4096x4, .f32⟩
  | .hbm, ⟨4, _⟩ => ⟨S8x4096x4, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S8x4096x4096, .f32⟩
  | .hbm, ⟨12, _⟩ => ⟨S_, .f32⟩
  | .hbm, ⟨13, _⟩ => ⟨S8x4096x4096, .f32⟩
  | .hbm, ⟨14, _⟩ => ⟨S8x4096x4096, .i1⟩
  | .hbm, ⟨15, _⟩ => ⟨S_, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S_, .f32⟩
  | .hbm, ⟨20, _⟩ => ⟨S8x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S8x4096x1, .f32⟩
  | .hbm, ⟨25, _⟩ => ⟨S8x4096x4096, .f32⟩
  | .hbm, ⟨26, _⟩ => ⟨S8x4096x4096, .f32⟩
  | .hbm, ⟨27, _⟩ => ⟨S8x4096x4096, .f32⟩
  | .hbm, ⟨28, _⟩ => ⟨S_, .f32⟩
  | .hbm, ⟨29, _⟩ => ⟨S8x4096, .f32⟩
  | .hbm, ⟨30, _⟩ => ⟨S8x4096x1, .f32⟩
  | .hbm, ⟨31, _⟩ => ⟨S8x4096x4096, .f32⟩
  | .hbm, ⟨32, _⟩ => ⟨S8x4096x4096, .f32⟩
  | .hbm, ⟨33, _⟩ => ⟨S_, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096x4096, .f32⟩
  | .hbm, ⟨42, _⟩ => ⟨S4096x4096, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  reducesTo_S8x4096x4096_S8x4096_d2 : S8x4096x4096.ReducesTo [2] S8x4096
  h_S_ : 0 < S_.numel
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  reducesTo_S8x4096x4096_S4096x4096_d0 : S8x4096x4096.ReducesTo [0] S4096x4096
  bcast_S_S4096x4096 : S_.BroadcastsInDim S4096x4096 (![] : Fin 0 → Fin S4096x4096.rank)
  transposes_S4096x4096_S4096x4096_1_0 : S4096x4096.Transposes [1, 0] S4096x4096
  dot_S8x4096x128_S128x4_S8x4096x4_2_0_01_1_n_n_wf : DotDims.WF S8x4096x128 S128x4 S8x4096x4 [2] [0] [0, 1] [1] [] []
  dot_S8x4096x4_S8x4096x4_S8x4096x4096_2_2_1_1_0_0_wf : DotDims.WF S8x4096x4 S8x4096x4 S8x4096x4096 [2] [2] [1] [1] [0] [0]

variable [Facts₀]

def dot_S8x4096x128_S128x4_S8x4096x4_2_0_01_1_n_n : DotDims S8x4096x128 S128x4 S8x4096x4 where
  lhsContracting := [2]
  rhsContracting := [0]
  lhsNonContracting := [0, 1]
  rhsNonContracting := [1]
  lhsBatch := []
  rhsBatch := []
  wf := dot_S8x4096x128_S128x4_S8x4096x4_2_0_01_1_n_n_wf
def dot_S8x4096x4_S8x4096x4_S8x4096x4096_2_2_1_1_0_0 : DotDims S8x4096x4 S8x4096x4 S8x4096x4096 where
  lhsContracting := [2]
  rhsContracting := [2]
  lhsNonContracting := [1]
  rhsNonContracting := [1]
  lhsBatch := [0]
  rhsBatch := [0]
  wf := dot_S8x4096x4_S8x4096x4_S8x4096x4096_2_2_1_1_0_0_wf

class Facts : Prop extends Facts₀ where

variable [Facts]
-- ==== Proof.Spec.lean ====
/-
  The mathematics of the kernel, as functions of the argument arrays over the extended reals.

  From the input x : [8, 4096, 128] and two weights [128, 4] the program forms, per batch b, a key and a query
  projection laid out [b, d, n] (the query scaled by one half), the scores q · k over the four features, a leaky
  rectifier max(s, slope·s), the softmax of each row of 4096 scores, the sum of the eight batches' attention matrices,
  and finally one sixteenth of that sum plus its transpose.
-/
import Idealize.ShloMosaic.PureOps.Ideal
import Idealize.ShloMosaic.Lib.ValueIdx

noncomputable section

namespace Cert.Attn

open Idealize.ShloMosaic Idealize.ShloMosaic.ValueIdx

/-- The shapes: the input, a weight, a projection laid out [batch, feature, position], the result. -/
abbrev SX : Shape := ⟨3, ![8, 4096, 128]⟩
abbrev SW : Shape := ⟨2, ![128, 4]⟩
abbrev SP : Shape := ⟨3, ![8, 4, 4096]⟩
abbrev SO : Shape := ⟨2, ![4096, 4096]⟩

/-- The four float constants the two programs share, as the extended reals their words denote. -/
def half : EReal := Ideal.ofBits .f32 0x3F000000#32
def slope : EReal := Ideal.ofBits .f32 0x3E4CCCCD#32
def sixteenth : EReal := Ideal.ofBits .f32 0x3D800000#32
def negInf : EReal := Ideal.ofBits .f32 0xFF800000#32

/-- A projection of position n of batch b onto feature d: the sum over the 128 input channels of weight times input. -/
def proj (x : SX.Idx → EReal) (w : SW.Idx → EReal) (b : Fin 8) (d : Fin 4) (n : Fin 4096) : EReal :=
  ∑ f : Fin 128, w (ix2 f d) * x (ix3 b n f)

/-- The key projection as an array [batch, feature, position]. -/
def keyArr (x : SX.Idx → EReal) (w : SW.Idx → EReal) : SP.Idx → EReal :=
  fun i => proj x w ⟨(i 0).val, (i 0).isLt⟩ ⟨(i 1).val, (i 1).isLt⟩ ⟨(i 2).val, (i 2).isLt⟩

/-- The query projection, scaled by one half, as an array [batch, feature, position]. -/
def qryArr (x : SX.Idx → EReal) (w : SW.Idx → EReal) : SP.Idx → EReal :=
  fun i => proj x w ⟨(i 0).val, (i 0).isLt⟩ ⟨(i 1).val, (i 1).isLt⟩ ⟨(i 2).val, (i 2).isLt⟩ * half

theorem keyArr_ix3 (x : SX.Idx → EReal) (w : SW.Idx → EReal) (b : Fin 8) (d : Fin 4) (n : Fin 4096) :
    keyArr x w (ix3 b d n) = proj x w b d n := rfl

theorem qryArr_ix3 (x : SX.Idx → EReal) (w : SW.Idx → EReal) (b : Fin 8) (d : Fin 4) (n : Fin 4096) :
    qryArr x w (ix3 b d n) = proj x w b d n * half := rfl

/-- The score of query position n against key position m in batch b, from any two projection arrays. -/
def score (Q K : SP.Idx → EReal) (b : Fin 8) (n m : Fin 4096) : EReal :=
  ∑ d : Fin 4, Q (ix3 b d n) * K (ix3 b d m)

/-- The leaky rectifier in its two-operation form. -/
def leaky (s : EReal) : EReal := max s (slope * s)

/-- The largest entry of a row, folded from minus infinity. -/
def rowMax (r : Fin 4096 → EReal) : EReal := (Finset.univ : Finset (Fin 4096)).fold max negInf r

/-- The softmax of a row at position m: the exponential of the entry less the row's maximum, over the sum of those. -/
def soft (r : Fin 4096 → EReal) (m : Fin 4096) : EReal :=
  Ideal.div (Ideal.exp (r m - rowMax r)) (∑ k : Fin 4096, Ideal.exp (r k - rowMax r))

/-- The attention weight of key position m for query position n in batch b. -/
def attn (Q K : SP.Idx → EReal) (b : Fin 8) (n m : Fin 4096) : EReal :=
  soft (fun k => leaky (score Q K b n k)) m

/-- The attention weights summed over the eight batches. -/
def total (Q K : SP.Idx → EReal) (n m : Fin 4096) : EReal := ∑ b : Fin 8, attn Q K b n m

/-- The summed attention as an array [query position, key position]. -/
def totalArr (Q K : SP.Idx → EReal) : SO.Idx → EReal :=
  fun i => total Q K ⟨(i 0).val, (i 0).isLt⟩ ⟨(i 1).val, (i 1).isLt⟩

theorem totalArr_ix2 (Q K : SP.Idx → EReal) (n m : Fin 4096) : totalArr Q K (ix2 n m) = total Q K n m := rfl

/-- The result at (n, m): one sixteenth of the summed attention plus its transpose. -/
def outAt (x : SX.Idx → EReal) (wk wq : SW.Idx → EReal) (n m : Fin 4096) : EReal :=
  sixteenth * (total (qryArr x wq) (keyArr x wk) n m + total (qryArr x wq) (keyArr x wk) m n)

/-- The result as an array. -/
def outArr (x : SX.Idx → EReal) (wk wq : SW.Idx → EReal) : SO.Idx → EReal :=
  fun i => outAt x wk wq ⟨(i 0).val, (i 0).isLt⟩ ⟨(i 1).val, (i 1).isLt⟩

theorem outArr_ix2 (x : SX.Idx → EReal) (wk wq : SW.Idx → EReal) (n m : Fin 4096) :
    outArr x wk wq (ix2 n m) = outAt x wk wq n m := rfl

end Cert.Attn

end
-- ==== Proof.ProjPayload.lean ====
/-
  The projection body's two stored blocks, read at an index over the extended reals.

  At batch b the body loads the input block x_b : [1, 4096, 128] and a weight w : [128, 4], drops the block's unit axis,
  contracts the weight's first axis with the block's channel axis into a [4, 4096] array starting from zero, and puts
  the unit axis back. Every operation is exact here and a change of float format is the identity, so the stored key block
  at (0, d, n) is the sum over the 128 channels f of w(f, d) · x_b(0, n, f); the query block is that sum, taken with
  the query weight, times one half.
-/
import proofs.«114013_j87832081203633_2_alg».proof.Proof.Spec
import proofs.«114013_j87832081203633_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.Attn

open Idealize.ShloMosaic Idealize.ShloMosaic.ValueIdx
open Cert.KernelIdeal Cert.KernelIdeal.Gen

/-- The dimension numbers of the projection's contraction: the weight [128, 4] contracted on its first axis with the
    input block [4096, 128] on its second, into [4, 4096]. -/
abbrev PD := dot_S128x4_S4096x128_S4x4096_0_1_1_0_n_n

theorem pd_lhs_0 (i : S4x4096.Idx) (q : PD.contr.Idx) : (PD.lhsIdx i q 0).val = (q ⟨0, by decide⟩).val :=
  PD.lhsIdx_val_of_single rfl i q

theorem pd_rhs_1 (i : S4x4096.Idx) (q : PD.contr.Idx) : (PD.rhsIdx i q 1).val = (q ⟨0, by decide⟩).val :=
  PD.rhsIdx_val_of_single rfl i q

theorem pd_lhs_1 (i : S4x4096.Idx) (q : PD.contr.Idx) : (PD.lhsIdx i q 1).val = (i 0).val := by
  unfold DotDims.lhsIdx
  rw [dif_neg (show ¬(1 : Fin S128x4.rank) ∈ PD.lhsBatch by decide), dif_pos (show (1 : Fin S128x4.rank) ∈ PD.lhsNonContracting by decide)]
  rfl

theorem pd_rhs_0 (i : S4x4096.Idx) (q : PD.contr.Idx) : (PD.rhsIdx i q 0).val = (i 1).val := by
  unfold DotDims.rhsIdx
  rw [dif_neg (show ¬(0 : Fin S4096x128.rank) ∈ PD.rhsBatch by decide), dif_pos (show (0 : Fin S4096x128.rank) ∈ PD.rhsNonContracting by decide)]
  rfl

/-- The input block with its unit batch axis dropped and its format changed, at row n and channel f. -/
theorem blockRows_apply (x0 : Vec Ideal S1x4096x128 .f32) (n : Fin 4096) (f : Fin 128) :
    (k0_pay1 (F := Ideal) x0 (ix2 n f) : EReal) = x0 (ix3 (0 : Fin 1) n f) := by
  unfold k0_pay1
  show shapeCast S4096x128 x0 shapeCasts_S1x4096x128_S4096x128 (ix2 n f) = _
  refine (shapeCast_dropUnit_apply ![4096, 128] x0 shapeCasts_S1x4096x128_S4096x128 (ix2 n f)).trans ?_
  refine congrArg x0 (funext fun a => ?_)
  match a with
  | ⟨0, _⟩ => rfl
  | ⟨1, _⟩ => rfl
  | ⟨2, _⟩ => rfl

/-- The contraction of a weight with the input block, at feature d and position n: the sum over the 128 channels. -/
theorem contraction_apply (x0 : Vec Ideal S1x4096x128 .f32) (w : Vec Ideal S128x4 .f32) (d : Fin 4) (n : Fin 4096) :
    (matmul PD none (truncf .bf16 w bitsLt_bf16_f32) (k0_pay1 (F := Ideal) x0) (constant (F := Ideal) S4x4096 .f32 0x00000000#32) (ix2 d n) : EReal)
      = ∑ f : Fin 128, w (ix2 f d) * x0 (ix3 (0 : Fin 1) n f) := by
  refine (Ideal.matmul_constant_zero_apply PD none _ _ (ix2 d n)).trans ?_
  rw [← Equiv.sum_comp (contrEquiv1 PD 128 rfl rfl).symm]
  refine Finset.sum_congr rfl fun k _ => ?_
  have hk := contrEquiv1_symm_val PD 128 rfl rfl k
  have el : PD.lhsIdx (ix2 d n) ((contrEquiv1 PD 128 rfl rfl).symm k) = ix2 k d := funext fun a => Fin.ext (by
    match a with
    | ⟨0, _⟩ => exact (pd_lhs_0 _ _).trans hk
    | ⟨1, _⟩ => exact pd_lhs_1 _ _)
  have er : PD.rhsIdx (ix2 d n) ((contrEquiv1 PD 128 rfl rfl).symm k) = ix2 n k := funext fun a => Fin.ext (by
    match a with
    | ⟨0, _⟩ => exact pd_rhs_0 _ _
    | ⟨1, _⟩ => exact (pd_rhs_1 _ _).trans hk)
  rw [el, er]
  show w (ix2 k d) * (k0_pay1 (F := Ideal) x0 (ix2 n k) : EReal) = _
  rw [blockRows_apply]

/-- Adding the unit batch axis back: the stored [1, 4, 4096] block at (0, d, n) is the [4, 4096] value at (d, n). -/
theorem addBatch_apply (v : FVec Ideal S4x4096 .f32) (d : Fin 4) (n : Fin 4096) :
    (shapeCast S1x4x4096 v shapeCasts_S4x4096_S1x4x4096 (ix3 (0 : Fin 1) d n) : EReal) = v (ix2 d n) := by
  refine (shapeCast_addUnit_apply ![4, 4096] v shapeCasts_S4x4096_S1x4x4096 (ix3 (0 : Fin 1) d n)).trans ?_
  refine congrArg v (funext fun a => ?_)
  match a with
  | ⟨0, _⟩ => rfl
  | ⟨1, _⟩ => rfl

/-- The key block the body stores, at feature d and position n of its batch. -/
theorem keyBlock_apply (x0 : Vec Ideal S1x4096x128 .f32) (w : Vec Ideal S128x4 .f32) (d : Fin 4) (n : Fin 4096) :
    (k0_pay2 (F := Ideal) x0 w (ix3 (0 : Fin 1) d n) : EReal) = ∑ f : Fin 128, w (ix2 f d) * x0 (ix3 (0 : Fin 1) n f) := by
  unfold k0_pay2
  refine (addBatch_apply _ d n).trans ?_
  exact contraction_apply x0 w d n

/-- The query block the body stores: the same contraction with the query weight, times one half. -/
theorem qryBlock_apply (x0 : Vec Ideal S1x4096x128 .f32) (w : Vec Ideal S128x4 .f32) (d : Fin 4) (n : Fin 4096) :
    (k0_pay3 (F := Ideal) x0 w (ix3 (0 : Fin 1) d n) : EReal) = (∑ f : Fin 128, w (ix2 f d) * x0 (ix3 (0 : Fin 1) n f)) * half := by
  unfold k0_pay3
  refine (addBatch_apply _ d n).trans ?_
  refine (mulf_apply _ _ _).trans ?_
  rw [contraction_apply x0 w d n]
  rfl

end Cert.Attn

end
-- ==== Proof.ProjValue.lean ====
/-
  The projection stage's two output arrays are the specification's projections.

  The stage runs over eight grid points, one per batch. At point t it reads batch t of the input x : [8, 4096, 128] as a
  block [1, 4096, 128] and the two weights [128, 4] whole, and writes one block [1, 4, 4096] of the query array and one of
  the key array, both at batch t. A block's entry at coordinate y on an axis sits in its array at
  (block index) × (block size) + y on that axis. So the block a point writes back is a block of ONE function of the whole
  arrays — the query projection (sum over channels of weight times input, times one half) or the key projection —, the
  eight blocks cover the array, and the array after the stage is that function.
-/
import proofs.«114013_j87832081203633_2_alg».proof.Proof.ProjPayload
import proofs.«114013_j87832081203633_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.Attn

open Cert.KernelIdeal Cert.KernelIdeal.Gen

variable (V : (c : Dev nD) → (b : Ref sig .tc) → Buf (Elt Ideal) ((c : Thread nD τ).loc b))

/-- The arrays the five windows of the projection stage move: the input, the key weight, the query weight, the query
    projection and the key projection. -/
theorem arrRef0_0 : Pipeline.arrRef spec0 0 = main_arg0 := rfl
theorem arrRef0_1 : Pipeline.arrRef spec0 1 = main_arg1 := rfl
theorem arrRef0_2 : Pipeline.arrRef spec0 2 = main_arg2 := rfl
theorem arrRef0_3 : Pipeline.arrRef spec0 3 = main_v0_0 := rfl
theorem arrRef0_4 : Pipeline.arrRef spec0 4 = main_v0_1 := rfl

/-- A whole-block access starts at offset zero on every axis. -/
theorem zeros3 : (![0, 0, 0] : Fin 3 → Nat) = fun _ => 0 := funext fun a => by fin_cases a <;> rfl
theorem zeros2 : (![0, 0] : Fin 2 → Nat) = fun _ => 0 := funext fun a => by fin_cases a <;> rfl

/-- The grid has eight points, one per batch. -/
theorem point_lt (t : Fin cfg0.N) : t.val < 8 := by have := t.isLt; have h : cfg0.N = 8 := N_0; omega

/-- The block index of every window at point t: the input block and the two output blocks sit at batch t, offset zero on
    the other axes; the two weights are whole, at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0 :=
  (by decide +kernel : ∀ t : Fin grid0.N, _)

/-- The input block at point t is batch t of the input: its entry (0, n, f) is x(t, n, f). -/
theorem inputBlock_apply (c : Dev nD) (t : Fin cfg0.N) (n : Fin 4096) (f : Fin 128) :
    ((iblk0 V c 0 t : Vec Ideal S1x4096x128 .f32) (ix3 (0 : Fin 1) n f) : EReal)
      = (V c main_arg0 : S8x4096x128.Idx → EReal) (ix3 (⟨t.val, point_lt t⟩ : Fin 8) n f) := by
  obtain ⟨e0, e1, e2, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 3) * 1 + 1 * 0 = t.val; omega
  | ⟨1, _⟩ => show win0_0.index t (1 : Fin 3) * 4096 + 1 * n.val = n.val; omega
  | ⟨2, _⟩ => show win0_0.index t (2 : Fin 3) * 128 + 1 * f.val = f.val; omega

/-- The key weight's block at any point is the whole weight. -/
theorem keyWeightBlock_apply (c : Dev nD) (t : Fin cfg0.N) (f : Fin 128) (d : Fin 4) :
    ((iblk0 V c 1 t : Vec Ideal S128x4 .f32) (ix2 f d) : EReal) = (V c main_arg1 : S128x4.Idx → EReal) (ix2 f d) := by
  obtain ⟨-, -, -, e0, e1, -⟩ := idx_facts t
  unfold iblk0
  rw [View.read_apply]
  show V c main_arg1 _ = V c main_arg1 _
  refine congrArg (V c main_arg1) (funext fun a => Fin.ext ?_)
  match a with
  | ⟨0, _⟩ => show win0_1.index t (0 : Fin 2) * 128 + 1 * f.val = f.val; omega
  | ⟨1, _⟩ => show win0_1.index t (1 : Fin 2) * 4 + 1 * d.val = d.val; omega

/-- The query weight's block at any point is the whole weight. -/
theorem qryWeightBlock_apply (c : Dev nD) (t : Fin cfg0.N) (f : Fin 128) (d : Fin 4) :
    ((iblk0 V c 2 t : Vec Ideal S128x4 .f32) (ix2 f d) : EReal) = (V c main_arg2 : S128x4.Idx → EReal) (ix2 f d) := by
  obtain ⟨-, -, -, -, -, e0, e1, -⟩ := idx_facts t
  unfold iblk0
  rw [View.read_apply]
  show V c main_arg2 _ = V c main_arg2 _
  refine congrArg (V c main_arg2) (funext fun a => Fin.ext ?_)
  match a with
  | ⟨0, _⟩ => show win0_2.index t (0 : Fin 2) * 128 + 1 * f.val = f.val; omega
  | ⟨1, _⟩ => show win0_2.index t (1 : Fin 2) * 4 + 1 * d.val = d.val; omega

/-- Entry (0, d, n) of the query output's block at point t sits at (t, d, n) of the array. -/
theorem qryBlock_emb (t : Fin cfg0.N) (d : Fin 4) (n : Fin 4096) :
    (((cfg0.win 3).blk t).view.emb (ix3 (0 : Fin 1) d n) : S8x4x4096.Idx) = ix3 (⟨t.val, point_lt t⟩ : Fin 8) d n := by
  obtain ⟨-, -, -, -, -, -, -, e0, e1, e2, -⟩ := idx_facts t
  refine funext fun a => Fin.ext ?_
  match a with
  | ⟨0, _⟩ => show win0_3.index t (0 : Fin 3) * 1 + 1 * 0 = t.val; omega
  | ⟨1, _⟩ => show win0_3.index t (1 : Fin 3) * 4 + 1 * d.val = d.val; omega
  | ⟨2, _⟩ => show win0_3.index t (2 : Fin 3) * 4096 + 1 * n.val = n.val; omega

/-- Entry (0, d, n) of the key output's block at point t sits at (t, d, n) of the array. -/
theorem keyBlock_emb (t : Fin cfg0.N) (d : Fin 4) (n : Fin 4096) :
    (((cfg0.win 4).blk t).view.emb (ix3 (0 : Fin 1) d n) : S8x4x4096.Idx) = ix3 (⟨t.val, point_lt t⟩ : Fin 8) d n := by
  obtain ⟨-, -, -, -, -, -, -, -, -, -, e0, e1, e2⟩ := idx_facts t
  refine funext fun a => Fin.ext ?_
  match a with
  | ⟨0, _⟩ => show win0_4.index t (0 : Fin 3) * 1 + 1 * 0 = t.val; omega
  | ⟨1, _⟩ => show win0_4.index t (1 : Fin 3) * 4 + 1 * d.val = d.val; omega
  | ⟨2, _⟩ => show win0_4.index t (2 : Fin 3) * 4096 + 1 * n.val = n.val; omega

/-- What point t writes back to the query array is block t of the specification's query projection: at (0, d, n) the
    body's stored sum over the channels, with each loaded block read where it sits in its array, times one half. -/
theorem qry_flushed (c : Dev nD) (t : Fin cfg0.N) :
    (dat0 (F := Ideal) V c).flushed 3 t = ((cfg0.win 3).blk t).view.read (Elt Ideal) (qryArr (V c main_arg0) (V c main_arg2)) := by
  show (cfg0.win 3).cut (grid0.coords t) ((dat0 (F := Ideal) V c).after 3 t) = _
  rw [after0_3]
  unfold out0_3
  rw [View.canon_unit_zero zeros3]
  simp only [View.ld_unit_zero (S := S1x4096x128) zeros3, View.ld_unit_zero (S := S128x4) zeros2]
  refine funext fun (j : S1x4x4096.Idx) => ?_
  obtain ⟨a, d, n, rfl⟩ : ∃ (a : Fin 1) (d : Fin 4) (n : Fin 4096), j = ix3 a d n := ⟨j 0, j 1, j 2, eq_ix3 j⟩
  obtain rfl : a = 0 := Subsingleton.elim _ _
  show (k0_pay3 (F := Ideal) (iblk0 V c 0 t) (iblk0 V c 2 t) (ix3 (0 : Fin 1) d n) : EReal)
    = qryArr (V c main_arg0) (V c main_arg2) (((cfg0.win 3).blk t).view.emb (ix3 (0 : Fin 1) d n))
  refine (qryBlock_apply (iblk0 V c 0 t) (iblk0 V c 2 t) d n).trans ?_
  rw [qryBlock_emb t d n, qryArr_ix3]
  unfold proj
  refine congrArg (· * half) (Finset.sum_congr rfl fun f _ => ?_)
  rw [qryWeightBlock_apply V c t f d, inputBlock_apply V c t n f]

/-- What point t writes back to the key array is block t of the specification's key projection. -/
theorem key_flushed (c : Dev nD) (t : Fin cfg0.N) :
    (dat0 (F := Ideal) V c).flushed 4 t = ((cfg0.win 4).blk t).view.read (Elt Ideal) (keyArr (V c main_arg0) (V c main_arg1)) := by
  show (cfg0.win 4).cut (grid0.coords t) ((dat0 (F := Ideal) V c).after 4 t) = _
  rw [after0_4]
  unfold out0_4
  rw [View.canon_unit_zero zeros3]
  simp only [View.ld_unit_zero (S := S1x4096x128) zeros3, View.ld_unit_zero (S := S128x4) zeros2]
  refine funext fun (j : S1x4x4096.Idx) => ?_
  obtain ⟨a, d, n, rfl⟩ : ∃ (a : Fin 1) (d : Fin 4) (n : Fin 4096), j = ix3 a d n := ⟨j 0, j 1, j 2, eq_ix3 j⟩
  obtain rfl : a = 0 := Subsingleton.elim _ _
  show (k0_pay2 (F := Ideal) (iblk0 V c 0 t) (iblk0 V c 1 t) (ix3 (0 : Fin 1) d n) : EReal)
    = keyArr (V c main_arg0) (V c main_arg1) (((cfg0.win 4).blk t).view.emb (ix3 (0 : Fin 1) d n))
  refine (keyBlock_apply (iblk0 V c 0 t) (iblk0 V c 1 t) d n).trans ?_
  rw [keyBlock_emb t d n, keyArr_ix3]
  unfold proj
  refine Finset.sum_congr rfl fun f _ => ?_
  rw [keyWeightBlock_apply V c t f d, inputBlock_apply V c t n f]

/-- An index of the query array lies in point t's block iff each coordinate lies in the block's range on its axis. -/
theorem mem_qryBlock (t : Fin cfg0.N) (i : S8x4x4096.Idx) :
    i ∈ ((cfg0.win 3).blk t).view.set ↔ ∀ a : Fin 3, win0_3.index t a * S1x4x4096.size a ≤ (i a).val ∧ (i a).val < win0_3.index t a * S1x4x4096.size a + S1x4x4096.size a := by
  show i ∈ ((View.whole main_v0_0).slice (win0_3.rect t)).set ↔ _
  rw [View.set_slice_whole, Rect.mem_set_unit]
  exact Iff.rfl

/-- The same for the key array. -/
theorem mem_keyBlock (t : Fin cfg0.N) (i : S8x4x4096.Idx) :
    i ∈ ((cfg0.win 4).blk t).view.set ↔ ∀ a : Fin 3, win0_4.index t a * S1x4x4096.size a ≤ (i a).val ∧ (i a).val < win0_4.index t a * S1x4x4096.size a + S1x4x4096.size a := by
  show i ∈ ((View.whole main_v0_1).slice (win0_4.rect t)).set ↔ _
  rw [View.set_slice_whole, Rect.mem_set_unit]
  exact Iff.rfl

/-- Every index (b, d, n) of the query array lies in the block of point b, which is written back. -/
theorem qry_cover (i : S8x4x4096.Idx) : ∃ t : Fin cfg0.N, (cfg0.win 3).flush t = true ∧ i ∈ ((cfg0.win 3).blk t).view.set := by
  have h0 : (i 0).val < 8 := (i 0).isLt
  have h1 : (i 1).val < 4 := (i 1).isLt
  have h2 : (i 2).val < 4096 := (i 2).isLt
  have hN : cfg0.N = 8 := N_0
  refine ⟨⟨(i 0).val, by omega⟩, flush0_3 _, ?_⟩
  obtain ⟨-, -, -, -, -, -, -, e0, e1, e2, -⟩ := idx_facts ⟨(i 0).val, by omega⟩
  rw [mem_qryBlock]
  intro a
  match a with
  | ⟨0, _⟩ => show win0_3.index _ (0 : Fin 3) * 1 ≤ (i 0).val ∧ (i 0).val < win0_3.index _ (0 : Fin 3) * 1 + 1; rw [e0]; show (i 0).val * 1 ≤ (i 0).val ∧ (i 0).val < (i 0).val * 1 + 1; omega
  | ⟨1, _⟩ => show win0_3.index _ (1 : Fin 3) * 4 ≤ (i 1).val ∧ (i 1).val < win0_3.index _ (1 : Fin 3) * 4 + 4; rw [e1]; omega
  | ⟨2, _⟩ => show win0_3.index _ (2 : Fin 3) * 4096 ≤ (i 2).val ∧ (i 2).val < win0_3.index _ (2 : Fin 3) * 4096 + 4096; rw [e2]; omega

/-- Every index (b, d, n) of the key array lies in the block of point b, which is written back. -/
theorem key_cover (i : S8x4x4096.Idx) : ∃ t : Fin cfg0.N, (cfg0.win 4).flush t = true ∧ i ∈ ((cfg0.win 4).blk t).view.set := by
  have h0 : (i 0).val < 8 := (i 0).isLt
  have h1 : (i 1).val < 4 := (i 1).isLt
  have h2 : (i 2).val < 4096 := (i 2).isLt
  have hN : cfg0.N = 8 := N_0
  refine ⟨⟨(i 0).val, by omega⟩, flush0_4 _, ?_⟩
  obtain ⟨-, -, -, -, -, -, -, -, -, -, e0, e1, e2⟩ := idx_facts ⟨(i 0).val, by omega⟩
  rw [mem_keyBlock]
  intro a
  match a with
  | ⟨0, _⟩ => show win0_4.index _ (0 : Fin 3) * 1 ≤ (i 0).val ∧ (i 0).val < win0_4.index _ (0 : Fin 3) * 1 + 1; rw [e0]; show (i 0).val * 1 ≤ (i 0).val ∧ (i 0).val < (i 0).val * 1 + 1; omega
  | ⟨1, _⟩ => show win0_4.index _ (1 : Fin 3) * 4 ≤ (i 1).val ∧ (i 1).val < win0_4.index _ (1 : Fin 3) * 4 + 4; rw [e1]; omega
  | ⟨2, _⟩ => show win0_4.index _ (2 : Fin 3) * 4096 ≤ (i 2).val ∧ (i 2).val < win0_4.index _ (2 : Fin 3) * 4096 + 4096; rw [e2]; omega

/-- The query array after the projection stage is the specification's query projection of the input and the query
    weight as the stage found them. -/
theorem qry_array (c : Dev nD) :
    (dat0 (F := Ideal) V c).arrAt 3 cfg0.N = qryArr (V c main_arg0) (V c main_arg2) :=
  (dat0 (F := Ideal) V c).arrAt_eq_of_cover 3 (qryArr (V c main_arg0) (V c main_arg2)) (fun t _ => qry_flushed V c t) qry_cover

/-- The key array after the projection stage is the specification's key projection of the input and the key weight as
    the stage found them. -/
theorem key_array (c : Dev nD) :
    (dat0 (F := Ideal) V c).arrAt 4 cfg0.N = keyArr (V c main_arg0) (V c main_arg1) :=
  (dat0 (F := Ideal) V c).arrAt_eq_of_cover 4 (keyArr (V c main_arg0) (V c main_arg1)) (fun t _ => key_flushed V c t) key_cover

end Cert.Attn
end
-- ==== Proof.LibReduceLayout.lean ====
/-
  Sums and one more column form, read at an index given by coordinates, over the extended reals.
    * a sum along the second axis of an `[a, n]` array, read at row `p`, is the sum over `k` of the entries `(p, k)`;
    * a sum along the first axis of a column `[a, 1]`, read at its one index, is the sum over `p` of the entries `(p, 0)`;
    * a column `[a, 1]` transposed to the row `[1, a]` and repeated along a new first axis of extent `b` reads, at
      `(p, q)`, the column's entry in row `q`.
  General in the extents; stated over indices built from coordinates so that they apply by unification.  The proofs of
  the reductions' side conditions are variables, so that whatever proof a program's text carries unifies with them.
-/
import Idealize.ShloMosaic.Lib.ValueLayout
import Idealize.ShloMosaic.PureOps.Ideal.Laws

namespace Cert.Lib.ReduceLayout

open Idealize.ShloMosaic Idealize.ShloMosaic.ValueIdx

/-- A sum along the second axis, read at row `p`. -/
theorem sum_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.add.neutral .f32 hφ)
    (p : Fin a) :
    multiReduction .add [1] ⟨1, ![a]⟩ v acc h hφ hacc (ix1 p) = ∑ k : Fin n, v (ix2 p k) := by
  refine (Ideal.multiReduction_add_single v acc h hφ hacc (ix1 p)).trans ?_
  refine Finset.sum_congr rfl fun k _ => congrArg v (funext fun d => ?_)
  match d with
  | ⟨0, _⟩ => rfl
  | ⟨1, _⟩ => rfl

/-- A sum along the first axis of a column, read at its one index. -/
theorem sum_axis0_col_apply {a : ℕ} (v : FVec Ideal ⟨2, ![a, 1]⟩ .f32) (acc : BitVec 32)
    (h : (⟨2, ![a, 1]⟩ : Shape).Reduces [0] ⟨1, ![1]⟩) (hφ : FKind.Formats .f32) (hacc : acc = FKind.add.neutral .f32 hφ)
    (y : (⟨1, ![1]⟩ : Shape).Idx) :
    multiReduction .add [0] ⟨1, ![1]⟩ v acc h hφ hacc y = ∑ p : Fin a, v (ix2 p (0 : Fin 1)) := by
  refine (Ideal.multiReduction_add_single v acc h hφ hacc y).trans ?_
  refine Finset.sum_congr rfl fun p _ => congrArg v (funext fun d => ?_)
  match d with
  | ⟨0, _⟩ => rfl
  | ⟨1, _⟩ =>
    have h1 : (h.lift y p (1 : Fin 2)).val < 1 := (h.lift y p (1 : Fin 2)).isLt
    exact Fin.ext (by show (h.lift y p (1 : Fin 2)).val = 0; omega)

variable {α : Type}

/-- A column turned into a row and repeated over `b` rows reads, at `(p, q)`, the column's entry in row `q`. -/
theorem broadcastTo_transpose_col_apply {a b : ℕ} (v : (⟨2, ![a, 1]⟩ : Shape).Idx → α)
    (ht : (⟨2, ![a, 1]⟩ : Shape).Transposes [1, 0] ⟨2, ![1, a]⟩) (hb : (⟨2, ![1, a]⟩ : Shape).Broadcasts ⟨2, ![b, a]⟩)
    (p : Fin b) (q : Fin a) :
    broadcastTo ⟨2, ![b, a]⟩ (transpose ⟨2, ![1, a]⟩ [1, 0] v ht) hb (ix2 p q) = v (ix2 q (0 : Fin 1)) :=
  (broadcastTo_1b_ab_apply _ hb p q).trans (transpose_ix2_apply v ht (0 : Fin 1) q)

end Cert.Lib.ReduceLayout
-- ==== Proof.LibMaxLayout.lean ====
/-
  The largest entry of a row, read at an index given by coordinates, over the extended reals: a maximum along the
  second axis of an `[a, n]` array, read at row `p`, is the fold of `max`, from the starting value, over the entries
  `(p, k)` of that row — for the vector unit's reduction (started from the value its accumulator word denotes) and for
  the host's one-operand reduction with a `max` body (started from its initial value's one element) alike.  Both are the
  library's single-axis readings with the inserted index named by its two coordinates.
  General in the extents; stated over indices built from coordinates so that they apply by unification.  The proofs of
  the reductions' side conditions are variables, so that whatever proof a program's text carries unifies with them.
-/
import Idealize.ShloMosaic.Lib.ValueIdx
import Idealize.ShloMosaic.PureOps.Ideal.Laws

namespace Cert.Lib.MaxLayout

open Idealize.ShloMosaic Idealize.ShloMosaic.ValueIdx

/-- The vector unit's maximum along the second axis, read at row `p`. -/
theorem max_axis1_apply {a n : ℕ} (v : FVec Ideal ⟨2, ![a, n]⟩ .f32) (acc : BitVec 32)
    (h : (⟨2, ![a, n]⟩ : Shape).Reduces [1] ⟨1, ![a]⟩) (hφ : FKind.Formats .f32) (hacc : acc = FKind.maximumf.neutral .f32 hφ)
    (p : Fin a) :
    multiReduction .maximumf [1] ⟨1, ![a]⟩ v acc h hφ hacc (ix1 p)
      = (Finset.univ : Finset (Fin n)).fold max (Ideal.ofBits .f32 acc) fun k => v (ix2 p k) := by
  refine (Ideal.multiReduction_maximumf_single v acc h hφ hacc (ix1 p)).trans ?_
  refine congrArg (fun f => (Finset.univ : Finset (Fin n)).fold max (Ideal.ofBits .f32 acc) f) (funext fun k => congrArg v (funext fun d => ?_))
  match d with
  | ⟨0, _⟩ => rfl
  | ⟨1, _⟩ => rfl

/-- The host's maximum along the second axis, read at row `p`: the fold starts from the initial value's element. -/
theorem hostMax_axis1_apply {a n : ℕ} {u : Shape} (x : (⟨2, ![a, n]⟩ : Shape).Idx → EReal) (init : u.Idx → EReal)
    (h' : (⟨2, ![a, n]⟩ : Shape).ReducesTo [1] ⟨1, ![a]⟩) (h : (⟨2, ![a, n]⟩ : Shape).Reduces [1] ⟨1, ![a]⟩)
    (hu : 0 < u.numel) (p : Fin a) :
    Host.reduce (FloatOps.maximumf (F := Ideal) (φ := .f32)) x init h' hu (ix1 p)
      = (Finset.univ : Finset (Fin n)).fold max (init (Shape.Idx.first hu)) fun k => x (ix2 p k) := by
  refine (Host.reduce_eq_fold_single (FloatOps.maximumf (F := Ideal) (φ := .f32)) x init h' h hu (ix1 p)).trans ?_
  refine congrArg (fun f => (Finset.univ : Finset (Fin n)).fold max (init (Shape.Idx.first hu)) f) (funext fun k => congrArg x (funext fun d => ?_))
  match d with
  | ⟨0, _⟩ => rfl
  | ⟨1, _⟩ => rfl

end Cert.Lib.MaxLayout
-- ==== Proof.LibColumnLayout.lean ====
/-
  Two layout operations read at an index given by coordinates: the column forms a `keepdims` row reduction meets.
  A vector of `a` row values becomes an `[a, 1]` column by a shape cast, and that column is repeated along a new
  second axis of extent `b` by a broadcast; read at `(i, j)` the result is the vector's value at `i`, whatever `j`.
  General in the extents; stated over indices built from coordinates so that they apply by unification.
-/
import Idealize.ShloMosaic.Lib.ValueLayout

namespace Cert.Lib.ColumnLayout

open Idealize.ShloMosaic Idealize.ShloMosaic.ValueIdx

variable {α : Type}

/-- An `[a]` array cast to the column `[a, 1]` reads, at `(i, u)`, the operand at `i`, whatever the unit coordinate `u`:
    both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the unit axis is read at `0`,
    the row axis at `p` (when `a` is itself `1` the row coordinate is `0` either way). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.ColumnLayout
-- ==== Proof.LibRowLit.lean ====
/-
  Row reductions and the column they are kept in, read at an index given by coordinates, in the spelling a kernel
  body's text carries: the accumulator a literal word and the side conditions the literal proofs `(.inl rfl) rfl`.
    * a sum along the second axis of an `[a, n]` array from the zero word, read at row `p`, is the sum over `k` of the
      entries `(p, k)`;
    * a maximum along the second axis from the word of minus infinity, read at row `p`, is the fold of `max`, from the
      value that word denotes, over the entries `(p, k)`;
    * a vector of `a` row values cast to an `[a, 1]` column and repeated over `[a, n]` reads, at `(p, k)`, the value at `p`.
  General in the extents.  Stated with the proofs spelt as a printed body spells them, so that they rewrite inside an
  unfolded body, where a statement over a hypothesis `acc = neutral` does not match.
-/
import proofs.«114013_j87832081203633_2_alg».proof.Proof.LibReduceLayout
import proofs.«114013_j87832081203633_2_alg».proof.Proof.LibMaxLayout
import proofs.«114013_j87832081203633_2_alg».proof.Proof.LibColumnLayout

namespace Cert.Lib.RowLit

open Idealize.ShloMosaic Idealize.ShloMosaic.ValueIdx

/-- A sum along the second axis from the zero word, read at row `p`. -/
theorem rowSum_lit {a n : ℕ} (v : FVec Ideal ⟨2, ![a, n]⟩ .f32) (h : (⟨2, ![a, n]⟩ : Shape).Reduces [1] ⟨1, ![a]⟩) (p : Fin a) :
    multiReduction .add [1] ⟨1, ![a]⟩ v 0x00000000#32 h (.inl rfl) rfl (ix1 p) = ∑ k : Fin n, v (ix2 p k) :=
  Cert.Lib.ReduceLayout.sum_axis1_apply v _ h _ _ p

/-- A maximum along the second axis from the word of minus infinity, read at row `p`. -/
theorem rowMax_lit {a n : ℕ} (v : FVec Ideal ⟨2, ![a, n]⟩ .f32) (h : (⟨2, ![a, n]⟩ : Shape).Reduces [1] ⟨1, ![a]⟩) (p : Fin a) :
    multiReduction .maximumf [1] ⟨1, ![a]⟩ v 0xFF800000#32 h (.inl rfl) rfl (ix1 p)
      = (Finset.univ : Finset (Fin n)).fold max (Ideal.ofBits .f32 0xFF800000#32) fun k => v (ix2 p k) :=
  Cert.Lib.MaxLayout.max_axis1_apply v _ h _ _ p

variable {α : Type}

/-- A vector of row values kept as a column and repeated along the second axis reads, at `(p, k)`, the value at `p`. -/
theorem column_apply {a n : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, n]⟩) (p : Fin a) (k : Fin n) :
    broadcastTo ⟨2, ![a, n]⟩ (shapeCast ⟨2, ![a, 1]⟩ x h₁) h₂ (ix2 p k) = x (ix1 p) :=
  (Cert.Lib.ColumnLayout.broadcastTo_a1_ab_apply _ h₂ p k).trans (Cert.Lib.ColumnLayout.shapeCast_a_a1_apply x h₁ p 0)

end Cert.Lib.RowLit
-- ==== Proof.AttnBody.lean ====
/-
  The attention kernel's arithmetic at one entry.

  At a grid point the body holds a block of 256 query columns q : [1, 4, 256], one batch's keys k : [1, 4, 4096] and the
  running total acc : [256, 4096].  It forms the 256 × 4096 scores  s(r, j) = ∑_d q(d, r) · k(d, j),  rectifies them,
  takes the softmax of each row and adds it to the running total.  Entry (r, m) of what it stores is therefore
  acc(r, m) + soft(row r of the rectified scores)(m).
-/
import proofs.«114013_j87832081203633_2_alg».proof.Proof.Gen.KernelIdeal.Skeleton
import proofs.«114013_j87832081203633_2_alg».proof.Proof.Spec
import proofs.«114013_j87832081203633_2_alg».proof.Proof.LibRowLit
import Idealize.ShloMosaic.Lib.ValueIdx
import Idealize.ShloMosaic.Lib.ValueLayout
import Idealize.ShloMosaic.Lib.Pipeline.Value
import Idealize.ShloMosaic.PureOps.Ideal.Laws

noncomputable section

namespace Cert.Attn

open Idealize.ShloMosaic Idealize.ShloMosaic.ValueIdx Cert.KernelIdeal Cert.KernelIdeal.Gen

/-! ## The scores: a product contracted over the four features -/

theorem scores_lhs0 (i : S256x4096.Idx) (c : dot_S4x256_S4x4096_S256x4096_0_0_1_1_n_n.contr.Idx) :
    (dot_S4x256_S4x4096_S256x4096_0_0_1_1_n_n.lhsIdx i c 0).val = (c ⟨0, by decide⟩).val :=
  dot_S4x256_S4x4096_S256x4096_0_0_1_1_n_n.lhsIdx_val_of_single rfl i c

theorem scores_lhs1 (i : S256x4096.Idx) (c : dot_S4x256_S4x4096_S256x4096_0_0_1_1_n_n.contr.Idx) :
    (dot_S4x256_S4x4096_S256x4096_0_0_1_1_n_n.lhsIdx i c 1).val = (i 0).val := by
  unfold DotDims.lhsIdx
  rw [dif_neg (show ¬(1 : Fin S4x256.rank) ∈ dot_S4x256_S4x4096_S256x4096_0_0_1_1_n_n.lhsBatch by decide),
    dif_pos (show (1 : Fin S4x256.rank) ∈ dot_S4x256_S4x4096_S256x4096_0_0_1_1_n_n.lhsNonContracting by decide)]
  rfl

theorem scores_rhs0 (i : S256x4096.Idx) (c : dot_S4x256_S4x4096_S256x4096_0_0_1_1_n_n.contr.Idx) :
    (dot_S4x256_S4x4096_S256x4096_0_0_1_1_n_n.rhsIdx i c 0).val = (c ⟨0, by decide⟩).val :=
  dot_S4x256_S4x4096_S256x4096_0_0_1_1_n_n.rhsIdx_val_of_single rfl i c

theorem scores_rhs1 (i : S256x4096.Idx) (c : dot_S4x256_S4x4096_S256x4096_0_0_1_1_n_n.contr.Idx) :
    (dot_S4x256_S4x4096_S256x4096_0_0_1_1_n_n.rhsIdx i c 1).val = (i 1).val := by
  unfold DotDims.rhsIdx
  rw [dif_neg (show ¬(1 : Fin S4x4096.rank) ∈ dot_S4x256_S4x4096_S256x4096_0_0_1_1_n_n.rhsBatch by decide),
    dif_pos (show (1 : Fin S4x4096.rank) ∈ dot_S4x256_S4x4096_S256x4096_0_0_1_1_n_n.rhsNonContracting by decide)]
  rfl

/-- The product of a [4, 256] and a [4, 4096] matrix contracted over their first axes, read at (r, j). -/
theorem scores_apply (a : FVec Ideal S4x256 .bf16) (b : FVec Ideal S4x4096 .bf16) (r : Fin 256) (j : Fin 4096) :
    matmul dot_S4x256_S4x4096_S256x4096_0_0_1_1_n_n none a b (constant (F := Ideal) S256x4096 .f32 0x00000000#32) (ix2 r j)
      = ∑ d : Fin 4, a (ix2 d r) * b (ix2 d j) := by
  refine (Ideal.matmul_constant_zero_apply dot_S4x256_S4x4096_S256x4096_0_0_1_1_n_n none a b (ix2 r j)).trans ?_
  rw [← Equiv.sum_comp (contrEquiv1 dot_S4x256_S4x4096_S256x4096_0_0_1_1_n_n 4 rfl rfl).symm]
  refine Finset.sum_congr rfl fun d _ => ?_
  have hd := contrEquiv1_symm_val dot_S4x256_S4x4096_S256x4096_0_0_1_1_n_n 4 rfl rfl d
  have el : dot_S4x256_S4x4096_S256x4096_0_0_1_1_n_n.lhsIdx (ix2 r j)
      ((contrEquiv1 dot_S4x256_S4x4096_S256x4096_0_0_1_1_n_n 4 rfl rfl).symm d) = ix2 d r := funext fun x => Fin.ext (by
    match x with
    | ⟨0, _⟩ => exact (scores_lhs0 _ _).trans hd
    | ⟨1, _⟩ => exact scores_lhs1 _ _)
  have er : dot_S4x256_S4x4096_S256x4096_0_0_1_1_n_n.rhsIdx (ix2 r j)
      ((contrEquiv1 dot_S4x256_S4x4096_S256x4096_0_0_1_1_n_n 4 rfl rfl).symm d) = ix2 d j := funext fun x => Fin.ext (by
    match x with
    | ⟨0, _⟩ => exact (scores_rhs0 _ _).trans hd
    | ⟨1, _⟩ => exact scores_rhs1 _ _)
  rw [el, er]

/-- The block's scores from the loaded query columns and keys. -/
abbrev scoresOf (q : Vec Ideal S1x4x256 .f32) (k : Vec Ideal S1x4x4096 .f32) : FVec Ideal S256x4096 .f32 :=
  matmul dot_S4x256_S4x4096_S256x4096_0_0_1_1_n_n none
    (truncf .bf16 (shapeCast S4x256 q shapeCasts_S1x4x256_S4x256) bitsLt_bf16_f32)
    (truncf .bf16 (shapeCast S4x4096 k shapeCasts_S1x4x4096_S4x4096) bitsLt_bf16_f32)
    (constant S256x4096 .f32 0x00000000#32)

theorem scoresOf_apply (q : Vec Ideal S1x4x256 .f32) (k : Vec Ideal S1x4x4096 .f32) (r : Fin 256) (j : Fin 4096) :
    scoresOf q k (ix2 r j) = ∑ d : Fin 4, q (ix3 (0 : Fin 1) d r) * k (ix3 (0 : Fin 1) d j) := by
  refine (scores_apply _ _ r j).trans (Finset.sum_congr rfl fun d _ => ?_)
  exact congrArg₂ (· * ·) (shapeCast_1ab_ab_apply q shapeCasts_S1x4x256_S4x256 d r)
    (shapeCast_1ab_ab_apply k shapeCasts_S1x4x4096_S4x4096 d j)

/-! ## The rectifier and the softmax of a row -/

/-- The rectified scores. -/
abbrev leakyOf (s : FVec Ideal S256x4096 .f32) : FVec Ideal S256x4096 .f32 :=
  maximumf s (mulf (broadcast S256x4096 (Scalar.ofBits (F := Ideal) .f32 0x3E4CCCCD#32)) s)

theorem leakyOf_apply (s : FVec Ideal S256x4096 .f32) (i : S256x4096.Idx) : leakyOf s i = leaky (s i) := rfl

/-- Each row's maximum, kept as a column and repeated along the row. -/
abbrev rowMaxOf (v : FVec Ideal S256x4096 .f32) : FVec Ideal S256x4096 .f32 :=
  broadcastTo S256x4096 (shapeCast S256x1 (multiReduction .maximumf [1] S256 v 0xFF800000#32 reduces_S256x4096_S256 (.inl rfl) rfl)
    shapeCasts_S256_S256x1) broadcasts_S256x1_S256x4096

theorem rowMaxOf_apply (v : FVec Ideal S256x4096 .f32) (r : Fin 256) (j : Fin 4096) :
    rowMaxOf v (ix2 r j) = rowMax fun k => v (ix2 r k) :=
  (Cert.Lib.RowLit.column_apply (a := 256) (n := 4096) _ shapeCasts_S256_S256x1 broadcasts_S256x1_S256x4096 r j).trans
    (Cert.Lib.RowLit.rowMax_lit (a := 256) (n := 4096) v reduces_S256x4096_S256 r)

/-- The exponentials of the entries less their row's maximum. -/
abbrev expOf (v : FVec Ideal S256x4096 .f32) : FVec Ideal S256x4096 .f32 := exp (subf v (rowMaxOf v))

theorem expOf_apply (v : FVec Ideal S256x4096 .f32) (r : Fin 256) (j : Fin 4096) :
    expOf v (ix2 r j) = Ideal.exp (v (ix2 r j) - rowMax fun k => v (ix2 r k)) :=
  congrArg (fun z => Ideal.exp (v (ix2 r j) - z)) (rowMaxOf_apply v r j)

/-- Each row's sum of exponentials, kept as a column and repeated along the row. -/
abbrev rowSumOf (e : FVec Ideal S256x4096 .f32) : FVec Ideal S256x4096 .f32 :=
  broadcastTo S256x4096 (shapeCast S256x1 (multiReduction .add [1] S256 e 0x00000000#32 reduces_S256x4096_S256 (.inl rfl) rfl)
    shapeCasts_S256_S256x1) broadcasts_S256x1_S256x4096

theorem rowSumOf_apply (e : FVec Ideal S256x4096 .f32) (r : Fin 256) (j : Fin 4096) :
    rowSumOf e (ix2 r j) = ∑ k : Fin 4096, e (ix2 r k) :=
  (Cert.Lib.RowLit.column_apply (a := 256) (n := 4096) _ shapeCasts_S256_S256x1 broadcasts_S256x1_S256x4096 r j).trans
    (Cert.Lib.RowLit.rowSum_lit (a := 256) (n := 4096) e reduces_S256x4096_S256 r)

/-- The softmax of every row. -/
abbrev softOf (v : FVec Ideal S256x4096 .f32) : FVec Ideal S256x4096 .f32 := divf (expOf v) (rowSumOf (expOf v))

theorem softOf_apply (v : FVec Ideal S256x4096 .f32) (r : Fin 256) (m : Fin 4096) :
    softOf v (ix2 r m) = soft (fun j => v (ix2 r j)) m := by
  show Ideal.div (expOf v (ix2 r m)) (rowSumOf (expOf v) (ix2 r m)) = _
  rw [rowSumOf_apply, expOf_apply]
  unfold soft
  exact congrArg (Ideal.div _) (Finset.sum_congr rfl fun k _ => expOf_apply v r k)

/-! ## The stored value -/

/-- What the body stores is the running total plus the softmax of the rectified scores. -/
theorem pay_eq (q : Vec Ideal S1x4x256 .f32) (k : Vec Ideal S1x4x4096 .f32) (acc : Vec Ideal S256x4096 .f32) :
    k1_pay2 (F := Ideal) q k acc
      = addf (shapeCast S256x4096 acc shapeCasts_S256x4096_S256x4096) (softOf (leakyOf (scoresOf q k))) := rfl

/-- Entry (r, m) of what the body stores. -/
theorem pay_apply (q : Vec Ideal S1x4x256 .f32) (k : Vec Ideal S1x4x4096 .f32) (acc : Vec Ideal S256x4096 .f32)
    (r : Fin 256) (m : Fin 4096) :
    k1_pay2 (F := Ideal) q k acc (ix2 r m)
      = acc (ix2 r m) + soft (fun j => leaky (∑ d : Fin 4, q (ix3 (0 : Fin 1) d r) * k (ix3 (0 : Fin 1) d j))) m := by
  rw [pay_eq]
  refine congrArg₂ (· + ·) (congrFun (shapeCast_self acc shapeCasts_S256x4096_S256x4096) (ix2 r m)) ?_
  refine (softOf_apply _ r m).trans (congrArg (fun row => soft row m) (funext fun j => ?_))
  rw [leakyOf_apply, scoresOf_apply]

/-- The zero the first batch starts the total from. -/
theorem zero_apply (i : S256x4096.Idx) : k1_pay1 (F := Ideal) i = 0 := Ideal.ofBits_zero_f32

end Cert.Attn

end
-- ==== Proof.AttnPieces.lean ====
/-
  What each control case of the attention kernel leaves in its output block.

  The body runs in two ways.  At the first batch of a query tile it stores a block of zeros, reads it back, and stores
  zero plus this batch's attention weights; at every later batch it reads the running total the batch before left and
  stores that total plus this batch's weights.  Either way the block ends as the body's one arithmetic expression of
  the query columns and keys it loaded and of the total it started from — zero in the first case.
-/
import proofs.«114013_j87832081203633_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.Attn

open Cert.KernelIdeal Cert.KernelIdeal.Gen

variable {F : FTy → Type} [FloatOps F]

theorem hz2 : (![0, 0] : Fin 2 → Nat) = fun _ => 0 := funext fun a => by fin_cases a <;> rfl

/-- The 256 query columns of batch i₁ the body loads at grid point i: a [1, 4, 256] piece of the query array. -/
abbrev qRect (i : grid1.Coords) : Rect S8x4x4096 := Rect.unit (s := S8x4x4096) (k1_off1 i) S1x4x256.size (k1_off1_inb i)

/-- Batch i₁'s keys: a [1, 4, 4096] piece of the key array. -/
abbrev kRect (i : grid1.Coords) : Rect S8x4x4096 := Rect.unit (s := S8x4x4096) (k1_off2 i) S1x4x4096.size (k1_off2_inb i)

/-- A later batch: the block ends as the total found there plus this batch's weights. -/
theorem out_later (c : Dev nD) (i : grid1.Coords) (a2 : Memref sig .tc .vmem S8x4x4096 .f32) (h2 : a2.IsWhole)
    (a3 : Memref sig .tc .vmem S8x4x4096 .f32) (h3 : a3.IsWhole) (a4 : Memref sig .tc .vmem S256x4096 .f32) (h4 : a4.IsWhole)
    (hc : ¬cond1_0 i) (x0 x1 : Vec F S8x4x4096 .f32) (xo : Vec F S256x4096 .f32) :
    out1_B_2 c i a2 h2 a3 h3 a4 h4 hc x0 x1 xo = k1_pay2 (View.ld x0 (qRect i)) (View.ld x1 (kRect i)) xo := by
  unfold out1_B_2
  rw [View.read_writes_eq_canon _ _ _ (cover1_B_2 c i a2 h2 a3 h3 a4 h4 hc x0 x1 xo)]
  unfold kernelRun1_B
  dsimp only
  rw [View.canon_unit_zero hz2]
  simp only [View.readAt_eq_ld, h2.read_unread, h3.read_unread, h4.read_unread, View.ld_unit_zero (S := S256x4096) hz2]

/-- The first batch: the block ends as zero plus this batch's weights. -/
theorem out_first (c : Dev nD) (i : grid1.Coords) (a2 : Memref sig .tc .vmem S8x4x4096 .f32) (h2 : a2.IsWhole)
    (a3 : Memref sig .tc .vmem S8x4x4096 .f32) (h3 : a3.IsWhole) (a4 : Memref sig .tc .vmem S256x4096 .f32) (h4 : a4.IsWhole)
    (hc : cond1_0 i) (x0 x1 : Vec F S8x4x4096 .f32) :
    out1_A_2 c i a2 h2 a3 h3 a4 h4 hc x0 x1 = k1_pay2 (View.ld x0 (qRect i)) (View.ld x1 (kRect i)) (k1_pay1 (F := F)) := by
  unfold out1_A_2
  rw [View.read_writes_eq_canon _ _ _ (cover1_A_2 c i a2 h2 a3 h3 a4 h4 hc x0 x1)]
  unfold kernelRun1_A
  dsimp only
  sl_unfold_run_names
  rw [View.canon_cons_unit_zero (S := S256x4096) hz2, View.readCov_unit_zero (S := S256x4096) _ hz2]
  simp only [View.readAt_eq_ld, h2.read_unread, h3.read_unread]

end Cert.Attn

end
-- ==== Proof.LibRunningSum.lean ====
/-
  A running sum over the first blocks of `n`.

  A computation that visits `n` blocks in order and keeps the total of the blocks seen so far holds, after block `e`,
  `upTo F e`: the sum of `F s` over the blocks `s ≤ e`.  It starts at `F 0`, grows by `F (e + 1)` at each step, and from the last
  block on is the sum over all of them.  In any commutative monoid, so on the extended reals nothing needs to be finite.
-/
import Mathlib.Algebra.BigOperators.Fin
import Mathlib.Tactic.Linarith

namespace Cert.Lib.RunningSum

variable {M : Type*} [AddCommMonoid M] {n : ℕ}

/-- The sum of `F s` over the blocks `s ≤ e`. -/
def upTo (F : Fin n → M) (e : ℕ) : M := ∑ s : Fin n, if s.val ≤ e then F s else 0

theorem upTo_zero [NeZero n] (F : Fin n → M) : upTo F 0 = F 0 := by
  unfold upTo
  rw [Finset.sum_eq_single (0 : Fin n)]
  · simp
  · intro s _ hs
    have : ¬ s.val ≤ 0 := fun h => hs (Fin.ext (by simpa using h))
    rw [if_neg this]
  · intro h; exact absurd (Finset.mem_univ _) h

theorem upTo_succ (F : Fin n → M) (e : ℕ) (he : e + 1 < n) : upTo F (e + 1) = upTo F e + F ⟨e + 1, he⟩ := by
  unfold upTo
  have h : ∀ s : Fin n, (if s.val ≤ e + 1 then F s else 0)
      = (if s.val ≤ e then F s else 0) + (if s = ⟨e + 1, he⟩ then F s else 0) := by
    intro s
    by_cases h1 : s.val ≤ e
    · have h2 : s.val ≤ e + 1 := by omega
      have h3 : ¬ s = ⟨e + 1, he⟩ := fun h => by have := congrArg Fin.val h; simp at this; omega
      rw [if_pos h1, if_pos h2, if_neg h3, add_zero]
    · by_cases h2 : s = ⟨e + 1, he⟩
      · have h3 : s.val ≤ e + 1 := by rw [h2]
        rw [if_neg h1, if_pos h3, if_pos h2, zero_add]
      · have h3 : ¬ s.val ≤ e + 1 := fun h => h2 (Fin.ext (by show s.val = e + 1; omega))
        rw [if_neg h1, if_neg h3, if_neg h2, add_zero]
  rw [Finset.sum_congr rfl fun s _ => h s, Finset.sum_add_distrib, Finset.sum_ite_eq' Finset.univ (⟨e + 1, he⟩ : Fin n) F,
    if_pos (Finset.mem_univ _)]

theorem upTo_full (F : Fin n → M) (e : ℕ) (he : n ≤ e + 1) : upTo F e = ∑ s, F s := by
  unfold upTo
  refine Finset.sum_congr rfl fun s _ => ?_
  rw [if_pos (by have := s.isLt; omega)]

end Cert.Lib.RunningSum
-- ==== Proof.AttnAccum.lean ====
/-
  The attention kernel's result array.

  The grid has 16 query tiles of 256 rows, and for each tile the 8 batches in order.  The output block of a tile stays
  in place while the batches go by: after batch b it holds, at (r, m), the sum over the batches up to b of the attention
  weight of key m for query row 256·tile + r.  The block is written back after the last batch, so the array ends
  holding, at (n, m), the sum over all eight batches.
-/
import proofs.«114013_j87832081203633_2_alg».proof.Proof.Gen.KernelIdeal.Frame
import proofs.«114013_j87832081203633_2_alg».proof.Proof.Spec
import proofs.«114013_j87832081203633_2_alg».proof.Proof.AttnBody
import proofs.«114013_j87832081203633_2_alg».proof.Proof.AttnPieces
import proofs.«114013_j87832081203633_2_alg».proof.Proof.LibRunningSum
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.Attn

open Cert.KernelIdeal Cert.KernelIdeal.Gen Cert.Lib.RunningSum

variable (V : (c : Dev nD) → (b : Ref sig .tc) → Buf (Elt Ideal) ((c : Thread nD τ).loc b))

/-! ## The grid -/

theorem N1 : cfg1.N = 128 := N_1

/-- Point t is batch t mod 8 of query tile t div 8; the output's block index is the tile, the inputs' never moves. -/
theorem grid_facts : ∀ t : Fin cfg1.N, (grid1.coords t 0).val = t.val / 8 ∧ (grid1.coords t 1).val = t.val % 8
    ∧ win1_2.index t (0 : Fin 2) = t.val / 8 ∧ win1_2.index t (1 : Fin 2) = 0 :=
  (by decide +kernel : ∀ t : Fin grid1.N, _)

/-! ## One point, over plain values -/

/-- A point of batch b whose query columns are the columns `row r` of an array Q and whose keys are batch b's of an
    array K adds, at (r, m), the attention weight of key m for query `row r` in batch b. -/
theorem point_value (q : Vec Ideal S1x4x256 .f32) (k : Vec Ideal S1x4x4096 .f32) (acc : Vec Ideal S256x4096 .f32)
    (Q K : SP.Idx → EReal) (b : Fin 8) (row : Fin 256 → Fin 4096)
    (hq : ∀ (d : Fin 4) (r : Fin 256), q (ix3 (0 : Fin 1) d r) = Q (ix3 b d (row r)))
    (hk : ∀ (d : Fin 4) (j : Fin 4096), k (ix3 (0 : Fin 1) d j) = K (ix3 b d j)) (r : Fin 256) (m : Fin 4096) :
    k1_pay2 (F := Ideal) q k acc (ix2 r m) = acc (ix2 r m) + attn Q K b (row r) m := by
  rw [pay_apply]
  refine congrArg (acc (ix2 r m) + ·) (congrArg (fun f => soft f m) (funext fun j => congrArg leaky ?_))
  exact Finset.sum_congr rfl fun d _ => by rw [hq, hk]

/-! ## The blocks a point reads -/

theorem hzq (t : Fin cfg1.N) : (fun a => win1_0.index t a * main_v0_0.ty.shape.size a) = fun _ => 0 :=
  funext fun a => by fin_cases a <;> rfl

theorem hzk (t : Fin cfg1.N) : (fun a => win1_1.index t a * main_v0_1.ty.shape.size a) = fun _ => 0 :=
  funext fun a => by fin_cases a <;> rfl

/-- The query window's block is the whole query array at every point. -/
theorem iblk_q (c : Dev nD) (t : Fin cfg1.N) : (iblk1 V c 0 t : Vec Ideal S8x4x4096 .f32) = V c main_v0_0 := by
  unfold iblk1
  exact Memref.read_access_unit_zero (Elt Ideal) main_v0_0 (hzq t) (fun a => by rw [congrFun (hzq t) a]; simp) (V c main_v0_0)

/-- The key window's block is the whole key array at every point. -/
theorem iblk_k (c : Dev nD) (t : Fin cfg1.N) : (iblk1 V c 1 t : Vec Ideal S8x4x4096 .f32) = V c main_v0_1 := by
  unfold iblk1
  exact Memref.read_access_unit_zero (Elt Ideal) main_v0_1 (hzk t) (fun a => by rw [congrFun (hzk t) a]; simp) (V c main_v0_1)

/-- The batch of a point. -/
def batchOf (n : ℕ) : Fin 8 := ⟨n % 8, Nat.mod_lt _ (by decide)⟩

/-- Row r of the tile of point n, as a row of the whole array. -/
def rowOf (n : ℕ) (hn : n < 128) (r : Fin 256) : Fin 4096 := ⟨256 * (n / 8) + r.val, by have := r.isLt; omega⟩

/-- The query columns a point loads are its tile's columns of its batch. -/
theorem ld_q (X : Vec Ideal S8x4x4096 .f32) (t : Fin cfg1.N) (ht : t.val < 128) (d : Fin 4) (r : Fin 256) :
    View.ld X (qRect (grid1.coords t)) (ix3 (0 : Fin 1) d r) = X (ix3 (batchOf t.val) d (rowOf t.val ht r)) := by
  obtain ⟨e0, e1, -, -⟩ := grid_facts t
  refine congrArg X (funext fun a => Fin.ext ?_)
  have ho := k1_off1_eq (grid1.coords t)
  match a with
  | ⟨0, _⟩ => show k1_off1 (grid1.coords t) 0 + 1 * 0 = t.val % 8; rw [ho]; show (grid1.coords t 1).val + 1 * 0 = _; omega
  | ⟨1, _⟩ => show k1_off1 (grid1.coords t) 1 + 1 * d.val = d.val; rw [ho]; show 0 + 1 * d.val = _; omega
  | ⟨2, _⟩ => show k1_off1 (grid1.coords t) 2 + 1 * r.val = 256 * (t.val / 8) + r.val; rw [ho]; show 256 * (grid1.coords t 0).val + 1 * r.val = _; omega

/-- The keys a point loads are its batch's. -/
theorem ld_k (X : Vec Ideal S8x4x4096 .f32) (t : Fin cfg1.N) (d : Fin 4) (j : Fin 4096) :
    View.ld X (kRect (grid1.coords t)) (ix3 (0 : Fin 1) d j) = X (ix3 (batchOf t.val) d j) := by
  obtain ⟨e0, e1, -, -⟩ := grid_facts t
  refine congrArg X (funext fun a => Fin.ext ?_)
  have ho := k1_off2_eq (grid1.coords t)
  match a with
  | ⟨0, _⟩ => show k1_off2 (grid1.coords t) 0 + 1 * 0 = t.val % 8; rw [ho]; show (grid1.coords t 1).val + 1 * 0 = _; omega
  | ⟨1, _⟩ => show k1_off2 (grid1.coords t) 1 + 1 * d.val = d.val; rw [ho]; show 0 + 1 * d.val = _; omega
  | ⟨2, _⟩ => show k1_off2 (grid1.coords t) 2 + 1 * j.val = j.val; rw [ho]; show 0 + 1 * j.val = _; omega

/-! ## The running total -/

/-- After point n the output block holds, at (r, m), the attention weights of the batches up to n's, summed. -/
theorem outsAt_eq (c : Dev nD) : ∀ (n : ℕ) (hn : n < cfg1.N) (h128 : n < 128) (r : Fin 256) (m : Fin 4096),
    outsAt1 V c n hn (ix2 r m)
      = upTo (fun b : Fin 8 => attn (V c main_v0_0) (V c main_v0_1) b (rowOf n h128 r) m) (n % 8) := by
  intro n
  induction n with
  | zero =>
    intro hn h128 r m
    rw [outsAt1_A V c ⟨0, hn⟩ rfl, out_first, iblk_q, iblk_k]
    refine (point_value _ _ _ (V c main_v0_0) (V c main_v0_1) (batchOf 0) (rowOf 0 h128)
      (fun d r => ld_q _ ⟨0, hn⟩ h128 d r) (fun d j => ld_k _ ⟨0, hn⟩ d j) r m).trans ?_
    rw [zero_apply, zero_add]
    exact (upTo_zero (n := 8) fun b : Fin 8 => attn (V c main_v0_0) (V c main_v0_1) b (rowOf 0 h128 r) m).symm
  | succ n ih =>
    intro hn h128 r m
    by_cases h0 : (n + 1) % 8 = 0
    · rw [outsAt1_A V c ⟨n + 1, hn⟩ h0, out_first, iblk_q, iblk_k]
      refine (point_value _ _ _ (V c main_v0_0) (V c main_v0_1) (batchOf (n + 1)) (rowOf (n + 1) h128)
        (fun d r => ld_q _ ⟨n + 1, hn⟩ h128 d r) (fun d j => ld_k _ ⟨n + 1, hn⟩ d j) r m).trans ?_
      have hb0 : batchOf (n + 1) = (0 : Fin 8) := Fin.ext h0
      rw [zero_apply, zero_add, h0, hb0]
      exact (upTo_zero (n := 8) fun b : Fin 8 => attn (V c main_v0_0) (V c main_v0_1) b (rowOf (n + 1) h128 r) m).symm
    · rw [outsAt1_B V c ⟨n + 1, hn⟩ h0, out_later, iblk_q, iblk_k]
      refine (point_value _ _ _ (V c main_v0_0) (V c main_v0_1) (batchOf (n + 1)) (rowOf (n + 1) h128)
        (fun d r => ld_q _ ⟨n + 1, hn⟩ h128 d r) (fun d j => ld_k _ ⟨n + 1, hn⟩ d j) r m).trans ?_
      have hrow : rowOf n (by omega) r = rowOf (n + 1) h128 r := Fin.ext (by show 256 * (n / 8) + r.val = 256 * ((n + 1) / 8) + r.val; omega)
      have hstep : (n + 1) % 8 = n % 8 + 1 := by omega
      have hlt : n % 8 + 1 < 8 := by omega
      show outsAt1 V c n _ (ix2 r m) + _ = _
      rw [ih (Nat.lt_of_succ_lt hn) (by omega) r m, hrow]
      have hb : batchOf (n + 1) = ⟨n % 8 + 1, hlt⟩ := Fin.ext hstep
      rw [hb, hstep]
      exact (upTo_succ _ (n % 8) hlt).symm

/-! ## What is written back, and the array -/

/-- The block written back after a tile's last batch is that tile's rows of the summed attention. -/
theorem flushed_total (c : Dev nD) (t : Fin cfg1.N) (hf : (cfg1.win 2).flush t = true) :
    (dat1 V c).flushed 2 t = ((cfg1.win 2).blk t).view.read (Elt Ideal) (totalArr (V c main_v0_0) (V c main_v0_1)) := by
  have h7 : t.val % 8 = 7 := (flush1_2 t).mp hf
  have h128 : t.val < 128 := lt_of_lt_of_eq t.isLt N1
  obtain ⟨-, -, e2, e3⟩ := grid_facts t
  show (cfg1.win 2).cut (grid1.coords t) ((dat1 V c).after 2 t) = _
  rw [after1_2]
  refine funext fun (y : S256x4096.Idx) => ?_
  obtain ⟨r, m, rfl⟩ : ∃ (r : Fin 256) (m : Fin 4096), y = ix2 r m := ⟨y 0, y 1, eq_ix2 y⟩
  show outsAt1 V c t.val t.isLt (ix2 r m) = totalArr (V c main_v0_0) (V c main_v0_1) (((cfg1.win 2).blk t).view.emb (ix2 r m))
  have hemb : ((cfg1.win 2).blk t).view.emb (ix2 r m) = ix2 (rowOf t.val h128 r) m := by
    funext a; apply Fin.ext
    match a with
    | ⟨0, _⟩ => show win1_2.index t (0 : Fin 2) * 256 + 1 * r.val = 256 * (t.val / 8) + r.val; omega
    | ⟨1, _⟩ => show win1_2.index t (1 : Fin 2) * 4096 + 1 * m.val = m.val; omega
  rw [hemb, totalArr_ix2, outsAt_eq V c t.val t.isLt h128 r m, h7]
  exact upTo_full _ 7 (by decide)

/-- Every entry of the array lies in the block of its tile's last point. -/
theorem covered (i : S4096x4096.Idx) :
    ∃ t : Fin cfg1.N, (cfg1.win 2).flush t = true ∧ i ∈ ((cfg1.win 2).blk t).view.set := by
  have hi0 : (i 0).val < 4096 := (i 0).isLt
  have hi1 : (i 1).val < 4096 := (i 1).isLt
  let t : Fin cfg1.N := ⟨8 * ((i 0).val / 256) + 7, by rw [N1]; omega⟩
  have htv : t.val = 8 * ((i 0).val / 256) + 7 := rfl
  obtain ⟨-, -, e2, e3⟩ := grid_facts t
  refine ⟨t, (flush1_2 t).mpr (by rw [htv]; omega), ?_⟩
  show i ∈ ((View.whole main_v1).slice (win1_2.rect t)).set
  rw [View.set_slice_whole, Rect.mem_set_unit]
  intro a
  match a with
  | ⟨0, _⟩ =>
    show win1_2.index t (0 : Fin 2) * 256 ≤ (i 0).val ∧ (i 0).val < win1_2.index t (0 : Fin 2) * 256 + 256
    rw [e2, htv]; omega
  | ⟨1, _⟩ =>
    show win1_2.index t (1 : Fin 2) * 4096 ≤ (i 1).val ∧ (i 1).val < win1_2.index t (1 : Fin 2) * 4096 + 4096
    rw [e3]; omega

/-- The attention region's result array is the summed attention of the query and key arrays it was entered with. -/
theorem total_array (c : Dev nD) :
    (dat1 (F := Ideal) V c).arrAt 2 cfg1.N = totalArr (V c main_v0_0) (V c main_v0_1) :=
  (dat1 V c).arrAt_eq_of_cover 2 (totalArr (V c main_v0_0) (V c main_v0_1)) (flushed_total V c) (covered)

end Cert.Attn

end
-- ==== Proof.Tail.lean ====
/-
  The last step of the program. From a square array S of 4096 by 4096 extended reals the result is, entry by entry,
  one sixteenth of the sum of S and its transpose:  result (n, m) = (1/16) · (S (n, m) + S (m, n)).
  The constant is kept as the float word it is written with; nothing here depends on its value.
-/
import proofs.«114013_j87832081203633_2_alg».proof.Proof.Spec
import proofs.«114013_j87832081203633_2_alg».proof.Proof.Gen.KernelIdeal
import Idealize.ShloMosaic.Lib.Pipeline.Value
import Idealize.ShloMosaic.Lib.ValueIdx

noncomputable section

namespace Cert.Attn

open Cert.KernelIdeal Idealize.ShloMosaic Idealize.ShloMosaic.ValueIdx

/-- The host tail: one sixteenth of an array plus its transpose. -/
def tailOf (S : (⟨Cert.KernelIdeal.S4096x4096, .f32⟩ : BufTy).Contents (Elt Ideal)) :
    (⟨Cert.KernelIdeal.S4096x4096, .f32⟩ : BufTy).Contents (Elt Ideal) :=
  mulf (broadcastInDim S4096x4096 ![] Cert.KernelIdeal.Gen.bcast_S_S4096x4096 (constant (F := Ideal) S_ .f32 0x3D800000#32))
    (addf S (transpose S4096x4096 [1, 0] S Cert.KernelIdeal.Gen.transposes_S4096x4096_S4096x4096_1_0))

/-- The scalar constant spread over the whole square is the constant at every entry. -/
theorem spread_sixteenth (n m : Fin 4096) :
    broadcastInDim S4096x4096 ![] Cert.KernelIdeal.Gen.bcast_S_S4096x4096 (constant (F := Ideal) S_ .f32 0x3D800000#32) (ix2 n m)
      = sixteenth :=
  broadcastInDim_apply _ Cert.KernelIdeal.Gen.bcast_S_S4096x4096 (constant (F := Ideal) S_ .f32 0x3D800000#32) (ix2 n m)
    (fun a => a.elim0) (fun a => a.elim0)

/-- The transpose at (n, m) is the array at (m, n). -/
theorem transpose_ix2 (S : (⟨Cert.KernelIdeal.S4096x4096, .f32⟩ : BufTy).Contents (Elt Ideal)) (n m : Fin 4096) :
    transpose S4096x4096 [1, 0] S Cert.KernelIdeal.Gen.transposes_S4096x4096_S4096x4096_1_0 (ix2 n m) = S (ix2 m n) :=
  transpose_apply [1, 0] S Cert.KernelIdeal.Gen.transposes_S4096x4096_S4096x4096_1_0 (ix2 n m) (ix2 m n) (fun b => match b with
    | ⟨0, _⟩ => rfl
    | ⟨1, _⟩ => rfl)

/-- The tail entry by entry: (1/16) · (S (n, m) + S (m, n)). -/
theorem tailOf_ix2 (S : (⟨Cert.KernelIdeal.S4096x4096, .f32⟩ : BufTy).Contents (Elt Ideal)) (n m : Fin 4096) :
    tailOf S (ix2 n m) = sixteenth * (S (ix2 n m) + S (ix2 m n)) := by
  unfold tailOf
  rw [mulf_apply, addf_apply, spread_sixteenth, transpose_ix2]

end Cert.Attn

end
-- ==== Proof.KernelRun.lean ====
/-
  The whole program's run with its result named.

  The program is two pipelined regions followed by five array operations. The first region writes the query and key
  projections, the second accumulates the attention of the eight batches into one square array, and the five closing
  operations return one sixteenth of that array plus its transpose. Here the run of the whole program is stated with
  the result buffer at that value (the closing operations applied to the array the second region leaves) and the three
  argument arrays unchanged; and the arrays each region starts from are named: the second region reads the query and
  key arrays the first leaves, the first reads the arguments as launched.
-/
import proofs.«114013_j87832081203633_2_alg».proof.Proof.Gen.KernelIdeal.Frame
import proofs.«114013_j87832081203633_2_alg».proof.Proof.Tail

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The arrays each region starts from -/

/-- The first region starts from the arguments as launched. -/
theorem V0_arg0 (c : Dev nD) : V0 m ρ c main_arg0 = m ((c.tc : Thread nD τ).loc main_arg0) := rfl
theorem V0_arg1 (c : Dev nD) : V0 m ρ c main_arg1 = m ((c.tc : Thread nD τ).loc main_arg1) := rfl
theorem V0_arg2 (c : Dev nD) : V0 m ρ c main_arg2 = m ((c.tc : Thread nD τ).loc main_arg2) := rfl

/-- The second region starts from the query array the first region leaves. -/
theorem V1_qry (c : Dev nD) : V1 m ρ c main_v0_0 = (dat0 (F := Ideal) (V0 m ρ) c).arrAt 3 cfg0.N := W1_arr m ρ c 3
/-- The second region starts from the key array the first region leaves. -/
theorem V1_key (c : Dev nD) : V1 m ρ c main_v0_1 = (dat0 (F := Ideal) (V0 m ρ) c).arrAt 4 cfg0.N := W1_arr m ρ c 4

/-! ## The result buffer after the closing operations -/

/-- The array the second region leaves, where the closing operations read it. -/
theorem W2_total (c : Dev nD) : W2 m ρ c (Proc.devRef .tc main_v1) = (dat1 (F := Ideal) (V1 m ρ) c).arrAt 2 cfg1.N := W2_arr m ρ c 2

/-- The result buffer ends at the closing operations applied to the array the second region leaves. -/
theorem W3_main_v5 (c : Dev nD) :
    W3 m ρ c (Proc.devRef .tc main_v5) = tailOf ((dat1 (F := Ideal) (V1 m ρ) c).arrAt 2 cfg1.N) := by
  show StableHlo.after hostOps2 (W2 m ρ c) (Proc.devRef .tc main_v5) = _
  after_results
  rw [W2_total m ρ c]
  rfl

/-! ## The run -/

-- the launch theorem's implicit arguments are found by unifying its conclusion with this one, which takes unfolding
-- plain definitions in a metavariable's type
set_option backward.isDefEq.respectTransparency.types false in
/-- From any memory with zero counters, every weakly fair execution of the program on the cores terminates without a
    fault, and in every final state the result buffer holds the closing operations applied to the array the second
    region leaves, and the three argument arrays are as launched. The run is the three segments in order — the two
    regions, then the closing operations — and the final state is read against the last segment's buffer contents:
    the result buffer by `W3_main_v5`, each argument by its walk back to the launch memory. -/
theorem kernel_run : θ_run (defs (F := Ideal)) (onTc (τ := τ) (main (F := Ideal))) ⟨m, fun _ => 0, ρ⟩ (fun r => ∀ c : Dev nD,
      r.2.mem ((c.tc : Thread nD τ).loc main_v5) = tailOf ((dat1 (F := Ideal) (V1 m ρ) c).arrAt 2 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨(h c _ (mem_uc main_v5 (by decide))).trans (W3_main_v5 m ρ c),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.Attn

end
-- ==== Proof.LibLeakySelect.lean ====
/-
  The leaky rectifier as a choice on the sign and as a maximum.

  For a real slope c between zero and one, and every extended real s, choosing s when s is at least zero and c·s
  otherwise gives the larger of s and c·s. On the reals c·s ≤ s exactly when s ≥ 0; at plus infinity s is the larger;
  at minus infinity c·s is at least s.
-/
import Idealize.ShloMosaic.PureOps.Ideal.Laws
import Idealize.ShloMosaic.Lib.ValueIdx

noncomputable section

namespace Cert.Lib.LeakySelect

open Idealize.ShloMosaic

/-- The choice of s or c·s on whether s is at least zero is the maximum of the two, for 0 ≤ c ≤ 1 and every extended
    real s. -/
theorem select_ge_eq_max (c : ℝ) (h0 : 0 ≤ c) (h1 : c ≤ 1) (s : EReal) :
    Scalar.select (Ideal.cmp .oge s 0) s ((c : EReal) * s) = max s ((c : EReal) * s) := by
  by_cases hs : (0 : EReal) ≤ s
  · have hc : Ideal.cmp .oge s 0 = 1#1 := by simp [Ideal.cmp, hs]
    rw [hc, ValueIdx.select_one]
    refine (max_eq_left ?_).symm
    induction s using EReal.rec with
    | bot => exact absurd hs (by simp)
    | coe r =>
      have hr : 0 ≤ r := EReal.coe_nonneg.1 hs
      rw [← EReal.coe_mul, EReal.coe_le_coe_iff]
      nlinarith
    | top => exact le_top
  · have hc : Ideal.cmp .oge s 0 = 0#1 := by simp [Ideal.cmp, hs]
    rw [hc, ValueIdx.select_zero]
    refine (max_eq_right ?_).symm
    induction s using EReal.rec with
    | bot => exact bot_le
    | coe r =>
      have hr : r < 0 := by
        by_contra h; exact hs (EReal.coe_nonneg.2 (not_lt.1 h))
      rw [← EReal.coe_mul, EReal.coe_le_coe_iff]
      nlinarith
    | top => exact absurd le_top hs

/-- The same with the compared zero written as the float word of all zero bits. -/
theorem select_ge_zeroWord_eq_max (c : ℝ) (h0 : 0 ≤ c) (h1 : c ≤ 1) (s : EReal) :
    Scalar.select (Ideal.cmp .oge s (Ideal.ofBits .f32 0x00000000#32)) s ((c : EReal) * s)
      = max s ((c : EReal) * s) := by
  rw [Ideal.ofBits_zero_f32]
  exact select_ge_eq_max c h0 h1 s

end Cert.Lib.LeakySelect

end
-- ==== Proof.Laws.lean ====
/-
  The laws of the extended reals, and the values of the float words, that relate the two arrangements of the
  computation: the scale one half applied to the query projection or to the finished contraction, the leaky
  rectifier as a maximum or as a choice on the sign, and the mean of the eight batches followed by one half
  against one sixteenth of their sum. Every law holds on all of the extended reals, the infinities included.
-/
import proofs.«114013_j87832081203633_2_alg».proof.Proof.Spec
import proofs.«114013_j87832081203633_2_alg».proof.Proof.LibLeakySelect
import Idealize.ShloMosaic.PureOps.Ideal.Laws
import Idealize.ShloMosaic.Lib.ValueIdx

noncomputable section

namespace Cert.Attn

open Idealize.ShloMosaic

/-! ## The float words as extended reals -/

/-- The word 0x3F000000 is one half. -/
theorem half_eq : half = ((1 / 2 : ℝ) : EReal) := by
  unfold half
  simp [Ideal.ofBits, Ideal.ieee]
  rw [← EReal.coe_mul]; norm_num

/-- The word 0x3D800000 is one sixteenth. -/
theorem sixteenth_eq : sixteenth = ((1 / 16 : ℝ) : EReal) := by
  unfold sixteenth
  simp [Ideal.ofBits, Ideal.ieee]
  rw [← EReal.coe_mul]; norm_num

/-- The word 0x41000000 is eight. -/
theorem word_eight : Ideal.ofBits .f32 0x41000000#32 = ((8 : ℝ) : EReal) := by
  simp [Ideal.ofBits, Ideal.ieee]
  rw [← EReal.coe_mul]; norm_num

/-- The word 0x40800000 is four. -/
theorem word_four : Ideal.ofBits .f32 0x40800000#32 = ((4 : ℝ) : EReal) := by
  simp [Ideal.ofBits, Ideal.ieee]
  rw [← EReal.coe_mul]; norm_num

/-- The word 0x3F800000 is one. -/
theorem word_one : Ideal.ofBits .f32 0x3F800000#32 = ((1 : ℝ) : EReal) := by
  simp [Ideal.ofBits, Ideal.ieee]
  rw [← EReal.coe_mul, ← EReal.coe_one]; norm_num

/-- The word 0x3E4CCCCD, the float nearest one fifth, is 13421773 / 67108864. -/
theorem slope_eq : slope = ((13421773 / 67108864 : ℝ) : EReal) := by
  unfold slope
  simp [Ideal.ofBits, Ideal.ieee]
  rw [← EReal.coe_mul]; norm_num

/-- The word 0xFF800000 is minus infinity, the least extended real. -/
theorem negInf_eq_bot : negInf = (⊥ : EReal) := by
  unfold negInf
  simp [Ideal.ofBits, Ideal.ieee]

theorem half_nonneg : (0 : EReal) ≤ half := by
  rw [half_eq]; exact EReal.coe_nonneg.2 (by norm_num)

theorem half_ne_top : half ≠ ⊤ := by
  rw [half_eq]; exact EReal.coe_ne_top _

/-- A maximum with minus infinity on the left is the right operand. -/
theorem max_negInf (y : EReal) : max negInf y = y := by
  rw [negInf_eq_bot]; exact max_eq_right bot_le

/-! ## The leaky rectifier -/

/-- For a slope c between zero and one, choosing s when s is at least zero and c·s otherwise is the larger of s and
    c·s, on every extended real. -/
theorem select_ge_eq_max (c : ℝ) (h0 : 0 ≤ c) (h1 : c ≤ 1) (s : EReal) :
    Scalar.select (Ideal.cmp .oge s 0) s ((c : EReal) * s) = max s ((c : EReal) * s) :=
  Cert.Lib.LeakySelect.select_ge_eq_max c h0 h1 s

/-- The choice on the sign with the program's slope is the leaky rectifier. -/
theorem select_ge_eq_leaky (s : EReal) :
    Scalar.select (Ideal.cmp .oge s 0) s (slope * s) = leaky s := by
  unfold leaky
  rw [slope_eq]
  exact select_ge_eq_max _ (by norm_num) (by norm_num) s

/-! ## A non-negative finite factor distributes over a finite sum -/

theorem sum_mul_const {ι : Type*} (S : Finset ι) (f : ι → EReal) (h : EReal) (h0 : 0 ≤ h) (hT : h ≠ ⊤) :
    (∑ d ∈ S, f d) * h = ∑ d ∈ S, f d * h := by
  classical
  induction S using Finset.induction_on with
  | empty => simp
  | insert a S ha ih =>
    rw [Finset.sum_insert ha, Finset.sum_insert ha, EReal.right_distrib_of_nonneg_of_ne_top h0 hT, ih]

/-- One half applied to a finished contraction is one half applied to each left factor. -/
theorem contraction_mul_half {ι : Type*} [Fintype ι] (q k : ι → EReal) :
    (∑ d, q d * k d) * half = ∑ d, q d * half * k d := by
  rw [sum_mul_const _ _ half half_nonneg half_ne_top]
  exact Finset.sum_congr rfl fun d _ => mul_right_comm _ _ _

/-! ## The scale: one over the square root of four is one half -/

theorem recip_sqrt_four :
    Ideal.div (Ideal.ofBits .f32 0x3F800000#32) (Ideal.sqrt (Ideal.ofBits .f32 0x40800000#32)) = half := by
  have h2 : Real.sqrt 4 = 2 := by
    rw [show (4 : ℝ) = 2 ^ 2 by norm_num, Real.sqrt_sq (by norm_num)]
  rw [word_one, word_four, Ideal.sqrt_coe, if_neg (by norm_num), h2, Ideal.div_coe (by norm_num), half_eq,
    ← EReal.coe_mul]
  norm_num

/-! ## The last line: one half of two eighths is one sixteenth of the sum -/

theorem half_mean_eq_sixteenth_sum (T T' : EReal) :
    half * (Ideal.div T (Ideal.ofBits .f32 0x41000000#32) + Ideal.div T' (Ideal.ofBits .f32 0x41000000#32))
      = sixteenth * (T + T') := by
  have h8 : (0 : EReal) ≤ ((1 / 8 : ℝ) : EReal) := EReal.coe_nonneg.2 (by norm_num)
  rw [word_eight, Ideal.div_coe (by norm_num), Ideal.div_coe (by norm_num),
    ← EReal.right_distrib_of_nonneg_of_ne_top h8 (EReal.coe_ne_top _), half_eq, sixteenth_eq,
    mul_comm (T + T') _, ← mul_assoc, ← EReal.coe_mul]
  norm_num

end Cert.Attn

end
-- ==== Proof.LibHostMaxLast.lean ====
/-
  A reduction by maximum along the last axis of a rank-three array, read at an index.

  Over the extended reals the maximum is commutative and associative, so the reduction of an array [a, b, n] along its
  last axis is, at (p, q), the maximum of the n entries (p, q, ·) folded from the initial value, in any order.
-/
import Idealize.ShloMosaic.Lib.ValueIdx
import Idealize.ShloMosaic.PureOps.Ideal.Laws

noncomputable section

namespace Cert.Lib.HostMaxLast

open Idealize.ShloMosaic Idealize.ShloMosaic.ValueIdx

/-- The index (p, q) of the reduced array with the coordinate k put back on the last axis is (p, q, k). -/
theorem lift_axis2 {a b n : ℕ} (h : (⟨3, ![a, b, n]⟩ : Shape).Reduces [2] ⟨2, ![a, b]⟩) (p : Fin a) (q : Fin b)
    (k : Fin ((⟨3, ![a, b, n]⟩ : Shape).size 2)) :
    h.lift (ix2 p q) k = ix3 p q (⟨k.val, k.isLt⟩ : Fin n) := by
  funext c; apply Fin.ext
  fin_cases c <;> rfl

/-- The reduction by maximum along the last axis of an array [a, b, n], read at (p, q), is the maximum of the entries
    (p, q, k) over k, folded from the initial value. -/
theorem hostMax_axis2_apply {a b n : ℕ} {u : Shape} (x : FVec Ideal ⟨3, ![a, b, n]⟩ .f32) (init : u.Idx → EReal)
    (h' : (⟨3, ![a, b, n]⟩ : Shape).ReducesTo [2] ⟨2, ![a, b]⟩)
    (h : (⟨3, ![a, b, n]⟩ : Shape).Reduces [2] ⟨2, ![a, b]⟩) (hu : 0 < u.numel) (p : Fin a) (q : Fin b) :
    Host.reduce (FloatOps.maximumf (F := Ideal) (φ := .f32)) x init h' hu (ix2 p q)
      = (Finset.univ : Finset (Fin n)).fold max (init (Shape.Idx.first hu)) fun k => x (ix3 p q k) := by
  rw [Host.reduce_eq_fold_single (FloatOps.maximumf (F := Ideal) (φ := .f32)) x init h' h hu]
  have hf : (x ∘ h.lift (ix2 p q)) = fun k : Fin n => x (ix3 p q k) :=
    funext fun k => congrArg x (lift_axis2 h p q k)
  exact congrArg (fun f => Finset.fold max (init (Shape.Idx.first hu)) f (Finset.univ : Finset (Fin n))) hf

end Cert.Lib.HostMaxLast

end
-- ==== Proof.RefValue.lean ====
/-
  The reference's value is the specification.

  The reference is read one operation at a time, each at an index: the two projections are the sums over the 128 input
  channels; the contraction over the four features, scaled afterwards by one over the square root of four, is the score
  with one half on the query projection; the choice on the sign of the scaled score is the leaky rectifier; the reduction
  by maximum over the last axis is the row's maximum folded from minus infinity; the exponential of the difference over
  the row's sum of those is the softmax, carried as one function of the row; the sum over the first axis is the sum of
  the eight batches; and one half of the two eighths, the second read at the transposed position, is one sixteenth of
  the sum.
-/
import proofs.«114013_j87832081203633_2_alg».proof.Proof.Gen.ReferenceIdeal.Read
import proofs.«114013_j87832081203633_2_alg».proof.Proof.Laws
import proofs.«114013_j87832081203633_2_alg».proof.Proof.LibHostMaxLast
import Idealize.ShloMosaic.Lib.ValueIdx
import Idealize.ShloMosaic.PureOps.Ideal.Laws
import Idealize.ShloMosaic.Lib.Pipeline.Value

noncomputable section

namespace Cert.Attn

open Idealize.ShloMosaic Idealize.ShloMosaic.ValueIdx Cert.ReferenceIdeal Cert.ReferenceIdeal.Gen Cert.ReferenceIdeal.Read

/-- The types of the argument arrays as the reference states them: the input and a weight. -/
abbrev XArr : Type := (⟨S8x4096x128, .f32⟩ : BufTy).Contents (Elt Ideal)
abbrev WArr : Type := (⟨S128x4, .f32⟩ : BufTy).Contents (Elt Ideal)

variable (x : XArr) (wk wq : WArr)

/-! ## The projections -/

/-- The key projection at batch b, position n, feature d. -/
theorem key_proj_at (b : Fin 8) (n : Fin 4096) (d : Fin 4) :
    val_main_v0 (F := Ideal) x wk (ix3 b n d) = proj x wk b d n := by
  rw [val_main_v0_apply]
  unfold proj
  refine Finset.sum_congr rfl fun f _ => ?_
  have el : lidx_main_v0 (ix3 b n d) f = ix3 b n f := funext fun a => Fin.ext (by match a with | ⟨0, _⟩ => rfl | ⟨1, _⟩ => rfl | ⟨2, _⟩ => rfl)
  have er : ridx_main_v0 (ix3 b n d) f = ix2 f d := funext fun a => Fin.ext (by match a with | ⟨0, _⟩ => rfl | ⟨1, _⟩ => rfl)
  rw [el, er, mul_comm]

/-- The query projection at batch b, position n, feature d. -/
theorem qry_proj_at (b : Fin 8) (n : Fin 4096) (d : Fin 4) :
    val_main_v1 (F := Ideal) x wq (ix3 b n d) = proj x wq b d n := by
  rw [val_main_v1_apply]
  unfold proj
  refine Finset.sum_congr rfl fun f _ => ?_
  have el : lidx_main_v1 (ix3 b n d) f = ix3 b n f := funext fun a => Fin.ext (by match a with | ⟨0, _⟩ => rfl | ⟨1, _⟩ => rfl | ⟨2, _⟩ => rfl)
  have er : ridx_main_v1 (ix3 b n d) f = ix2 f d := funext fun a => Fin.ext (by match a with | ⟨0, _⟩ => rfl | ⟨1, _⟩ => rfl)
  rw [el, er, mul_comm]

/-! ## The scaled score and the rectifier -/

/-- The contraction over the features times one over the square root of four is the score of the halved query
    projection against the key projection. -/
theorem scaled_score_at (b : Fin 8) (n m : Fin 4096) :
    val_main_v6 (F := Ideal) x wk wq (ix3 b n m) = score (qryArr x wq) (keyArr x wk) b n m := by
  rw [val_main_v6_apply, val_main_v4_apply, val_main_v5_apply, val_main_v3_apply, val_main_v2_apply,
    val_main_cst_apply, val_main_cst_0_apply]
  simp only [Ideal.mulf_def, Ideal.hostDivf_def, Ideal.hostUnary_sqrt_def, Ideal.ofBits_def]
  rw [recip_sqrt_four, contraction_mul_half]
  unfold score
  refine Finset.sum_congr rfl fun d _ => ?_
  have el : lidx_main_v4 (ix3 b n m) d = ix3 b n d := funext fun a => Fin.ext (by match a with | ⟨0, _⟩ => rfl | ⟨1, _⟩ => rfl | ⟨2, _⟩ => rfl)
  have er : ridx_main_v4 (ix3 b n m) d = ix3 b m d := funext fun a => Fin.ext (by match a with | ⟨0, _⟩ => rfl | ⟨1, _⟩ => rfl | ⟨2, _⟩ => rfl)
  rw [el, er, qry_proj_at, key_proj_at, qryArr_ix3, keyArr_ix3]

/-- The choice between the scaled score and the slope times it, on the sign of the scaled score, is the leaky
    rectifier of the score. -/
theorem rectified_at (b : Fin 8) (n m : Fin 4096) :
    val_main_v11 (F := Ideal) x wk wq (ix3 b n m) = leaky (score (qryArr x wq) (keyArr x wk) b n m) := by
  rw [val_main_v11_apply, val_main_v8_apply, val_main_v10_apply, val_main_v7_apply, val_main_v9_apply,
    val_main_cst_1_apply, val_main_cst_2_apply, scaled_score_at]
  simp only [Ideal.mulf_def, Ideal.cmpf_def, Ideal.ofBits_def, Ideal.ofBits_zero_f32]
  exact select_ge_eq_leaky _

/-! ## The softmax of a row, carried as one function of the row -/

/-- The reference's row of rectified scores for query position n of batch b. -/
def refRow (b : Fin 8) (n : Fin 4096) : Fin 4096 → EReal :=
  fun k => val_main_v11 (F := Ideal) x wk wq (ix3 b n k)

/-- The reduction by maximum over the last axis, from minus infinity, is the row's maximum. -/
theorem row_max_at (b : Fin 8) (n : Fin 4096) :
    val_main_v12 (F := Ideal) x wk wq (ix2 b n) = rowMax (refRow x wk wq b n) := by
  unfold val_main_v12 refRow
  exact Cert.Lib.HostMaxLast.hostMax_axis2_apply _ _ reducesTo_S8x4096x4096_S8x4096_d2 (by decide) h_S_ b n

/-- Its maximum with minus infinity is the row's maximum again. -/
theorem row_max_guard_at (b : Fin 8) (n : Fin 4096) :
    val_main_v14 (F := Ideal) x wk wq (ix2 b n) = rowMax (refRow x wk wq b n) := by
  rw [val_main_v14_apply, val_main_v13_apply, val_main_cst_4_apply, row_max_at]
  simp only [Ideal.maximumf_def, Ideal.ofBits_def]
  exact max_negInf _

/-- Broadcast back over the last axis, every position of the row reads the row's maximum. -/
theorem row_max_bcast_at (b : Fin 8) (n m : Fin 4096) :
    val_main_v16 (F := Ideal) x wk wq (ix3 b n m) = rowMax (refRow x wk wq b n) := by
  rw [val_main_v16_apply, val_main_v15_apply]
  have e : idx_main_v15 (idx_main_v16 (ix3 b n m)) = ix2 b n := funext fun a => Fin.ext (by match a with | ⟨0, _⟩ => rfl | ⟨1, _⟩ => rfl)
  rw [e, row_max_guard_at]

/-- The exponential of an entry less the row's maximum. -/
theorem exp_at (b : Fin 8) (n m : Fin 4096) :
    val_main_v18 (F := Ideal) x wk wq (ix3 b n m)
      = Ideal.exp (refRow x wk wq b n m - rowMax (refRow x wk wq b n)) := by
  rw [val_main_v18_apply, val_main_v17_apply, row_max_bcast_at]
  rfl

/-- The sum of those exponentials over the row, the initial zero dropped. -/
theorem exp_sum_at (b : Fin 8) (n : Fin 4096) :
    val_main_v19 (F := Ideal) x wk wq (ix2 b n)
      = ∑ k : Fin 4096, Ideal.exp (refRow x wk wq b n k - rowMax (refRow x wk wq b n)) := by
  rw [val_main_v19_apply, val_main_cst_5_apply]
  simp only [Ideal.ofBits_def, Ideal.ofBits_zero_f32, zero_add]
  refine Finset.sum_congr rfl fun k _ => ?_
  have e : idx_main_v19 (ix2 b n) k = ix3 b n k := funext fun a => Fin.ext (by match a with | ⟨0, _⟩ => rfl | ⟨1, _⟩ => rfl | ⟨2, _⟩ => rfl)
  rw [e, exp_at]

/-- The quotient of the two is the softmax of the row. -/
theorem soft_at (b : Fin 8) (n m : Fin 4096) :
    val_main_v22 (F := Ideal) x wk wq (ix3 b n m) = soft (refRow x wk wq b n) m := by
  rw [val_main_v22_apply, val_main_v21_apply, val_main_v20_apply]
  have e : idx_main_v20 (idx_main_v21 (ix3 b n m)) = ix2 b n := funext fun a => Fin.ext (by match a with | ⟨0, _⟩ => rfl | ⟨1, _⟩ => rfl)
  rw [e, exp_sum_at, exp_at]
  rfl

/-- The reference's row is the specification's row of rectified scores. -/
theorem refRow_eq (b : Fin 8) (n : Fin 4096) :
    refRow x wk wq b n = fun k => leaky (score (qryArr x wq) (keyArr x wk) b n k) :=
  funext fun k => rectified_at x wk wq b n k

/-! ## The sum over the batches and the last line -/

/-- The sum over the first axis, the initial zero dropped, is the attention summed over the eight batches. -/
theorem total_at (n m : Fin 4096) :
    val_main_v23 (F := Ideal) x wk wq (ix2 n m) = total (qryArr x wq) (keyArr x wk) n m := by
  rw [val_main_v23_apply, val_main_cst_6_apply]
  simp only [Ideal.ofBits_def, Ideal.ofBits_zero_f32, zero_add]
  unfold total attn
  refine Finset.sum_congr rfl fun b _ => ?_
  have e : idx_main_v23 (ix2 n m) b = ix3 b n m := funext fun a => Fin.ext (by match a with | ⟨0, _⟩ => rfl | ⟨1, _⟩ => rfl | ⟨2, _⟩ => rfl)
  rw [e, soft_at, refRow_eq]

/-- The mean over the batches: the sum divided by eight. -/
theorem mean_at (n m : Fin 4096) :
    val_main_v25 (F := Ideal) x wk wq (ix2 n m)
      = Ideal.div (total (qryArr x wq) (keyArr x wk) n m) (Ideal.ofBits .f32 0x41000000#32) := by
  rw [val_main_v25_apply, val_main_v24_apply, val_main_cst_7_apply, total_at]
  rfl

/-- The reference's value is the specification's result: one half of the mean plus the mean at the transposed position
    is one sixteenth of the summed attention plus its transpose. -/
theorem ref_value (x : (⟨Cert.ReferenceIdeal.S8x4096x128, .f32⟩ : BufTy).Contents (Elt Ideal))
    (wk wq : (⟨Cert.ReferenceIdeal.S128x4, .f32⟩ : BufTy).Contents (Elt Ideal)) :
    Cert.ReferenceIdeal.Read.val_main_v29 (F := Ideal) x wk wq = outArr x wk wq := by
  funext i
  obtain ⟨n, m, rfl⟩ : ∃ (n m : Fin 4096), i = ix2 n m := ⟨i 0, i 1, eq_ix2 i⟩
  rw [outArr_ix2, val_main_v29_apply, val_main_v28_apply, val_main_cst_8_apply, val_main_v27_apply,
    val_main_v26_apply]
  have e : idx_main_v26 (ix2 n m) = ix2 m n := funext fun a => Fin.ext (by match a with | ⟨0, _⟩ => rfl | ⟨1, _⟩ => rfl)
  rw [e, mean_at, mean_at]
  exact half_mean_eq_sixteenth_sum _ _

end Cert.Attn

end
-- ==== Proof.lean ====
/-
  The kernel and its reference compute the same symmetrised mean attention matrix.

  Input x : [8, 4096, 128] and two weights [128, 4].  Per batch b the key and query projections are
  k(d, n) = ∑_f wk(f, d) · x(b, n, f)  and  q(d, n) = (∑_f wq(f, d) · x(b, n, f)) / 2;  the score of query n against
  key m is  s(n, m) = ∑_d q(d, n) · k(d, m);  it is rectified as max(s, slope · s);  each row of 4096 rectified
  scores is turned into weights by the softmax;  the weights of the eight batches are added to a matrix T;  the result
  is (T + Tᵀ) / 16.

  The kernel does this in two passes over a grid — the projections batch by batch, then for each tile of 256 query rows
  the eight batches accumulated in place — and closes with three whole-array operations.  The reference contracts in
  another order, scales the score by 1 / √4 after the contraction instead of halving the query before it, writes the
  rectifier as a selection on the sign of the score, divides the sum by 8 and halves the symmetrised mean.  On the
  extended reals these agree without any appeal to finiteness: the sums are only re-ordered, one half is a non-negative
  finite factor and passes through a finite sum, max(s, c · s) is s for s ≥ 0 and c · s below when 0 ≤ c ≤ 1, √4 = 2,
  and (1/2) · (T/8 + Tᵀ/8) = (1/16) · (T + Tᵀ).

  The parts: Spec (the functions above), ProjValue (the first pass leaves the two projections), AttnBody, AttnPieces
  and AttnAccum (the second pass leaves T), Tail and KernelRun (the whole program's run with its result named),
  RefValue (the reference's result is the same function).  Here: the five claims.
-/
import proofs.«114013_j87832081203633_2_alg».proof.Defs
import proofs.«114013_j87832081203633_2_alg».proof.Proof.Gen.Kernel
import proofs.«114013_j87832081203633_2_alg».proof.Proof.Gen.Kernel.Skeleton
import proofs.«114013_j87832081203633_2_alg».proof.Proof.Gen.Kernel.Launch
import proofs.«114013_j87832081203633_2_alg».proof.Proof.Gen.Kernel.Points
import proofs.«114013_j87832081203633_2_alg».proof.Proof.Gen.Kernel.Frame
import proofs.«114013_j87832081203633_2_alg».proof.Proof.Gen.KernelIdeal
import proofs.«114013_j87832081203633_2_alg».proof.Proof.Gen.KernelIdeal.Skeleton
import proofs.«114013_j87832081203633_2_alg».proof.Proof.Gen.KernelIdeal.Launch
import proofs.«114013_j87832081203633_2_alg».proof.Proof.Gen.KernelIdeal.Points
import proofs.«114013_j87832081203633_2_alg».proof.Proof.Gen.KernelIdeal.Frame
import proofs.«114013_j87832081203633_2_alg».proof.Proof.Gen.ReferenceIdeal
import proofs.«114013_j87832081203633_2_alg».proof.Proof.Gen.Pre_finite_inputs
import proofs.«114013_j87832081203633_2_alg».proof.Proof.Gen.ReferenceIdeal.Run
import proofs.«114013_j87832081203633_2_alg».proof.Proof.Gen.ReferenceIdeal.Read
import proofs.«114013_j87832081203633_2_alg».proof.Proof.Spec
import proofs.«114013_j87832081203633_2_alg».proof.Proof.ProjValue
import proofs.«114013_j87832081203633_2_alg».proof.Proof.AttnAccum
import proofs.«114013_j87832081203633_2_alg».proof.Proof.KernelRun
import proofs.«114013_j87832081203633_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Attn

/-- Each program runs to the end, faults nowhere and leaves its arguments as they were. -/
theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

section
open Cert.KernelIdeal Cert.KernelIdeal.Gen

/-- What the kernel's result buffer ends holding is the specification's array of the three arguments: the second pass
    leaves the summed attention of the two projections the first pass leaves, and the closing operations symmetrise it. -/
theorem kernel_value (m : (ℓ : Loc nD τ sig) → Buf (Elt Ideal) ℓ) (ρ : Dev nD → PrngReg) (c : Dev nD) :
    tailOf ((dat1 (F := Ideal) (V1 m ρ) c).arrAt 2 cfg1.N)
      = outArr (m ((c.tc : Thread nD τ).loc main_arg0)) (m ((c.tc : Thread nD τ).loc main_arg1)) (m ((c.tc : Thread nD τ).loc main_arg2)) := by
  rw [total_array (V1 m ρ) c, V1_qry, V1_key, qry_array (V0 m ρ) c, key_array (V0 m ρ) c, V0_arg0, V0_arg1, V0_arg2]
  funext i
  obtain ⟨n, k, rfl⟩ : ∃ (n k : Fin 4096), i = ix2 n k := ⟨i 0, i 1, eq_ix2 i⟩
  rw [tailOf_ix2, totalArr_ix2, totalArr_ix2, outArr_ix2]
  rfl

end

/-- From memories that agree on the three arguments both idealized programs end with the same result array. -/
theorem algebraic : Cert.algebraic_KernelIdeal_ReferenceIdeal := by
  intro m ρ m' ρ' _ hagree
  refine ⟨fun c => outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono (fun _ h c => ⟨(h c).1.trans (kernel_value m ρ c), (h c).2⟩)
      (kernel_run m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v29_eq, ref_value, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
